-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v31_0)) (v1 : (c : Dev Cert.KernelIdeal.nD) → Buf (Elt Ideal) ((c.tc : Thread Cert.KernelIdeal.nD Cert.KernelIdeal.τ).loc Cert.KernelIdeal.main_v31_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_0) = v0 c
          ∧ r.2.mem ((c.tc : Thread Cert.KernelIdeal.nD Cert.KernelIdeal.τ).loc Cert.KernelIdeal.main_v31_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S2x600000 : Shape := ⟨2, ![2, 600000]⟩
abbrev S600000 : Shape := ⟨1, ![600000]⟩
abbrev S4096x1 : Shape := ⟨2, ![4096, 1]⟩
abbrev S500000 : Shape := ⟨1, ![500000]⟩
abbrev S128x128 : Shape := ⟨2, ![128, 128]⟩
abbrev S128 : Shape := ⟨1, ![128]⟩
abbrev S129x64 : Shape := ⟨2, ![129, 64]⟩
abbrev S64 : Shape := ⟨1, ![64]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S4096x1 : S_.BroadcastsInDim S4096x1 (![] : Fin 0 → Fin S4096x1.rank)
  reducesTo_S4096x1_S_d0_1 : S4096x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S129x64 : S_.BroadcastsInDim S129x64 (![] : Fin 0 → Fin S129x64.rank)
  reducesTo_S129x64_S_d0_1 : S129x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S64 .f32) (main_arg14 : FVec F S64 .f32) (main_arg15 : FVec F S64 .f32) (main_v48 : IVec S_ 1) (main_v49 : FVec F S129x64 .f32) (main_v50 : FVec F S129x64 .f32) : IVec S_ 1 :=
  let main_v51 : IVec S129x64 1 := cmpf .olt main_v49 main_v50
  let main_c_19 : IVec S_ 1 := constantI S_ 1 1#1
  let main_v52 : IVec S_ 1 := (fun x v => Host.reduce IntOp.andi x v reducesTo_S129x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg9 : FVec F S64 .f32) (main_arg10 : FVec F S64 .f32) (main_arg11 : FVec F S64 .f32) (main_arg12 : FVec F S129x64 .f32) (main_arg13 : FVec F S64 .f32) (main_arg14 : FVec F S64 .f32) (main_arg15 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S129x64 .f32 := Host.absf main_arg12
  let main_cst_18 : FVec F S_ .f32 := constant S_ .f32 0x7F800000#32
  let main_v50 : FVec F S129x64 .f32 := broadcastInDim S129x64 ![] bcast_S_S129x64 main_cst_18
  fn_part3 (F := F) main_arg13 main_arg14 main_arg15 main_v48 main_v49 main_v50

def fn_part1 {F : FTy → Type} [FloatOps F] (main_arg6 : FVec F S128x128 .f32) (main_arg7 : FVec F S128 .f32) (main_arg8 : FVec F S129x64 .f32) (main_arg9 : FVec F S64 .f32) (main_arg10 : FVec F S64 .f32) (main_arg11 : FVec F S64 .f32) (main_arg12 : FVec F S129x64 .f32) (main_arg13 : FVec F S64 .f32) (main_arg14 : FVec F S64 .f32) (main_arg15 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S129x64 .f32 := Host.absf main_arg8
  let main_cst_10 : FVec F S_ .f32 := constant S_ .f32 0x7F800000#32
  let main_v30 : FVec F S129x64 .f32 := broadcastInDim S129x64 ![] bcast_S_S129x64 main_cst_10
  let main_v31 : IVec S129x64 1 := cmpf .olt main_v29 main_v30
  let main_c_11 : IVec S_ 1 := constantI S_ 1 1#1
  let main_v32 : IVec S_ 1 := (fun x v => Host.reduce IntOp.andi x v reducesTo_S129x64_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S500000x128 .f32) (main_arg1 : IVec S2x600000 32) (main_arg2 : FVec F S600000 .f32) (main_arg3 : FVec F S4096x1 .f32) (main_arg4 : IVec S500000 32) (main_arg5 : FVec F S128x128 .f32) (main_arg6 : FVec F S128x128 .f32) (main_arg7 : FVec F S128 .f32) (main_arg8 : FVec F S129x64 .f32) (main_arg9 : FVec F S64 .f32) (main_arg10 : FVec F S64 .f32) (main_arg11 : FVec F S64 .f32) (main_arg12 : FVec F S129x64 .f32) (main_arg13 : FVec F S64 .f32) (main_arg14 : FVec F S64 .f32) (main_arg15 : FVec F S64 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S600000 .f32 := Host.absf main_arg2
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S4096x1 .f32 := Host.absf main_arg3
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_v13 main_v16
-- ==== Kernel.lean ====
abbrev S500000x128 : Shape := ⟨2, ![500000, 128]⟩
abbrev S2x600000 : Shape := ⟨2, ![2, 600000]⟩
abbrev S600000 : Shape := ⟨1, ![600000]⟩
abbrev S4096x1 : Shape := ⟨2, ![4096, 1]⟩
abbrev S500000 : Shape := ⟨1, ![500000]⟩
abbrev S128x128 : Shape := ⟨2, ![128, 128]⟩
abbrev S128 : Shape := ⟨1, ![128]⟩
abbrev S129x64 : Shape := ⟨2, ![129, 64]⟩
abbrev S64 : Shape := ⟨1, ![64]⟩
abbrev S1x600000 : Shape := ⟨2, ![1, 600000]⟩
abbrev S600000x1 : Shape := ⟨2, ![600000, 1]⟩
abbrev S_ : Shape := ⟨0, ![]⟩
abbrev S600000x128 : Shape := ⟨2, ![600000, 128]⟩
abbrev S5000x128 : Shape := ⟨2, ![5000, 128]⟩
abbrev S1x128 : Shape := ⟨2, ![1, 128]⟩
abbrev S4096x128 : Shape := ⟨2, ![4096, 128]⟩
abbrev S500000x1 : Shape := ⟨2, ![500000, 1]⟩
abbrev S4096 : Shape := ⟨1, ![4096]⟩
abbrev S4096x129 : Shape := ⟨2, ![4096, 129]⟩
abbrev S4096x64 : Shape := ⟨2, ![4096, 64]⟩
abbrev S1x64 : Shape := ⟨2, ![1, 64]⟩

abbrev nBuf : Space → Nat
  | .hbm => 56
  | .vmem => 20
  | .smem => 0
  | _ => 0

abbrev bufTy : (tb : Table) → Fin (tcTables nBuf tb) → BufTy
  | .hbm, ⟨0, _⟩ => ⟨S500000x128, .f32⟩
  | .hbm, ⟨1, _⟩ => ⟨S2x600000, .i32⟩
  | .hbm, ⟨2, _⟩ => ⟨S600000, .f32⟩
  | .hbm, ⟨3, _⟩ => ⟨S4096x1, .f32⟩
  | .hbm, ⟨4, _⟩ => ⟨S500000, .i32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S129x64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S129x64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S1x600000, .i32⟩
  | .hbm, ⟨17, _⟩ => ⟨S600000, .i32⟩
  | .hbm, ⟨18, _⟩ => ⟨S1x600000, .i32⟩
  | .hbm, ⟨19, _⟩ => ⟨S600000, .i32⟩
  | .hbm, ⟨20, _⟩ => ⟨S600000x1, .f32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S600000x128, .f32⟩
  | .hbm, ⟨30, _⟩ => ⟨S600000x128, .f32⟩
  | .hbm, ⟨31, _⟩ => ⟨S600000x128, .f32⟩
  | .hbm, ⟨32, _⟩ => ⟨S_, .f32⟩
  | .hbm, ⟨33, _⟩ => ⟨S500000x128, .f32⟩
  | .hbm, ⟨34, _⟩ => ⟨S600000x1, .i32⟩
  | .hbm, ⟨35, _⟩ => ⟨S500000x128, .f32⟩
  | .hbm, ⟨36, _⟩ => ⟨S500000x128, .f32⟩
  | .hbm, ⟨37, _⟩ => ⟨S_, .f32⟩
  | .hbm, ⟨38, _⟩ => ⟨S4096x128, .f32⟩
  | .hbm, ⟨39, _⟩ => ⟨S500000x1, .i32⟩
  | .hbm, ⟨40, _⟩ => ⟨S4096x128, .f32⟩
  | .hbm, ⟨41, _⟩ => ⟨S_, .f32⟩
  | .hbm, ⟨42, _⟩ => ⟨S500000, .f32⟩
  | .hbm, ⟨43, _⟩ => ⟨S_, .f32⟩
  | .hbm, ⟨44, _⟩ => ⟨S4096, .f32⟩
  | .hbm, ⟨45, _⟩ => ⟨S500000x1, .i32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S4096x1, .f32⟩
  | .hbm, ⟨51, _⟩ => ⟨S4096x128, .f32⟩
  | .hbm, ⟨52, _⟩ => ⟨S4096x128, .f32⟩
  | .hbm, ⟨53, _⟩ => ⟨S4096x129, .f32⟩
  | .hbm, ⟨54, _⟩ => ⟨S4096x64, .f32⟩
  | .hbm, ⟨55, _⟩ => ⟨S4096x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S4096x129, .f32⟩
  | .local _ .vmem, ⟨10, _⟩ => ⟨S129x64, .f32⟩
  | .local _ .vmem, ⟨11, _⟩ => ⟨S64, .f32⟩
  | .local _ .vmem, ⟨12, _⟩ => ⟨S64, .f32⟩
  | .local _ .vmem, ⟨13, _⟩ => ⟨S64, .f32⟩
  | .local _ .vmem, ⟨14, _⟩ => ⟨S129x64, .f32⟩
  | .local _ .vmem, ⟨15, _⟩ => ⟨S64, .f32⟩
  | .local _ .vmem, ⟨16, _⟩ => ⟨S64, .f32⟩
  | .local _ .vmem, ⟨17, _⟩ => ⟨S64, .f32⟩
  | .local _ .vmem, ⟨18, _⟩ => ⟨S4096x64, .f32⟩
  | .local _ .vmem, ⟨19, _⟩ => ⟨S4096x64, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_2 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_4 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31_0 : Ref sig .tc := ⟨.hbm, 54, rfl⟩
abbrev main_v31_1 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S4096x129 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S129x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S129x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S4096x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S4096x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S500000x128 : S_.BroadcastsInDim S500000x128 (![] : Fin 0 → Fin S500000x128.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S4096x128 : S_.BroadcastsInDim S4096x128 (![] : Fin 0 → Fin S4096x128.rank)
  bcast_S500000_S500000x1_0 : S500000.BroadcastsInDim S500000x1 (![0] : Fin 1 → Fin S500000x1.rank)
  bcast_S_S500000 : S_.BroadcastsInDim S500000 (![] : Fin 0 → Fin S500000.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  concatenates_S4096x128_S4096x1_S4096x129_d1 : Shape.Concatenates [S4096x128, S4096x1] S4096x129 1
  inb_S4096x129_S4096x129_0_0 : ∀ a, (![0, 0] : Fin 2 → Nat) a + S4096x129.size a ≤ S4096x129.size a
  h_S4096x129 : 0 < S4096x129.numel
  shapeCasts_S4096x129_S4096x129 : S4096x129.ShapeCasts S4096x129
  inb_S129x64_S129x64_0_0 : ∀ a, (![0, 0] : Fin 2 → Nat) a + S129x64.size a ≤ S129x64.size a
  h_S129x64 : 0 < S129x64.numel
  inb_S64_S64_0 : ∀ a, (![0] : Fin 1 → Nat) a + S64.size a ≤ S64.size a
  h_S64 : 0 < S64.numel
  shapeCasts_S64_S1x64 : S64.ShapeCasts S1x64
  broadcasts_S1x64_S4096x64 : S1x64.Broadcasts S4096x64
  reduces_S4096x64_S64 : S4096x64.Reduces [0] S64
  inb_S4096x64_S4096x64_0_0 : ∀ a, (![0, 0] : Fin 2 → Nat) a + S4096x64.size a ≤ S4096x64.size a
  h_S4096x64 : 0 < S4096x64.numel
  gather_S500000x128_S600000x1_S600000x128_1_0_n_n_0_1_1128_wf : GatherDims.WF S500000x128 S600000x1 S600000x128 [1] [0] [] [0] [] 1 ![1, 128]
  scatter_S500000x128_S600000x1_S600000x128_1_0_0_1_wf : ScatterDims.WF S500000x128 S600000x1 S600000x128 [1] [0] [0] 1
  dot_S5000x128_S128x128_S5000x128_1_0_0_1_n_n_wf : DotDims.WF S5000x128 S128x128 S5000x128 [1] [0] [0] [1] [] []
  scatter_S4096x128_S500000x1_S500000x128_1_0_0_1_wf : ScatterDims.WF S4096x128 S500000x1 S500000x128 [1] [0] [0] 1
  scatter_S4096_S500000x1_S500000_n_0_0_1_wf : ScatterDims.WF S4096 S500000x1 S500000 [] [0] [0] 1
  dot_S4096x129_S129x64_S4096x64_1_0_0_1_n_n_wf : DotDims.WF S4096x129 S129x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S500000x128.size a
  hwx0_0 : ∀ i : grid0.Coords, EltTy.bits .f32 = 32 ∨ (Rect.block (s := S500000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S500000x128.size a
  hwx0_1 : ∀ i : grid0.Coords, EltTy.bits .f32 = 32 ∨ (Rect.block (s := S500000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S500000x128.size a
  hwx0_5 : ∀ i : grid0.Coords, EltTy.bits .f32 = 32 ∨ (Rect.block (s := S500000x128) S5000x128.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4096x129.size a ≤ S4096x129.size a
  hwx1_0 : ∀ i : grid1.Coords, EltTy.bits .f32 = 32 ∨ (Rect.block (s := S4096x129) S4096x129.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S129x64.size a ≤ S129x64.size a
  hwx1_1 : ∀ i : grid1.Coords, EltTy.bits .f32 = 32 ∨ (Rect.block (s := S129x64) S129x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S129x64.size a ≤ S129x64.size a
  hwx1_5 : ∀ i : grid1.Coords, EltTy.bits .f32 = 32 ∨ (Rect.block (s := S129x64) S129x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64.size a ≤ S64.size a
  hwx1_7 : ∀ i : grid1.Coords, EltTy.bits .f32 = 32 ∨ (Rect.block (s := S64) S64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64.size a ≤ S64.size a
  hwx1_8 : ∀ i : grid1.Coords, EltTy.bits .f32 = 32 ∨ (Rect.block (s := S64) S64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S4096x64.size a ≤ S4096x64.size a
  hwx1_9 : ∀ i : grid1.Coords, EltTy.bits .f32 = 32 ∨ (Rect.block (s := S4096x64) S4096x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S4096x64.size a ≤ S4096x64.size a
  hwx1_10 : ∀ i : grid1.Coords, EltTy.bits .f32 = 32 ∨ (Rect.block (s := S4096x64) S4096x64.size (cc1_transform_10 i) (hinb1_10 i)).WholeWords (EltTy.packing .f32)

variable [Facts₀]

def gather_S500000x128_S600000x1_S600000x128_1_0_n_n_0_1_1128 : GatherDims S500000x128 S600000x1 S600000x128 where
  offsetDims := [1]
  collapsedSliceDims := [0]
  operandBatchingDims := []
  startIndicesBatchingDims := []
  startIndexMap := [0]
  indexVectorDim := 1
  sliceSizes := ![1, 128]
  wf := gather_S500000x128_S600000x1_S600000x128_1_0_n_n_0_1_1128_wf
def scatter_S500000x128_S600000x1_S600000x128_1_0_0_1 : ScatterDims S500000x128 S600000x1 S600000x128 where
  updateWindowDims := [1]
  insertedWindowDims := [0]
  scatterDimsToOperandDims := [0]
  indexVectorDim := 1
  wf := scatter_S500000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S4096x128_S500000x1_S500000x128_1_0_0_1 : ScatterDims S4096x128 S500000x1 S500000x128 where
  updateWindowDims := [1]
  insertedWindowDims := [0]
  scatterDimsToOperandDims := [0]
  indexVectorDim := 1
  wf := scatter_S4096x128_S500000x1_S500000x128_1_0_0_1_wf
def scatter_S4096_S500000x1_S500000_n_0_0_1 : ScatterDims S4096 S500000x1 S500000 where
  updateWindowDims := []
  insertedWindowDims := [0]
  scatterDimsToOperandDims := [0]
  indexVectorDim := 1
  wf := scatter_S4096_S500000x1_S500000_n_0_0_1_wf
def dot_S4096x129_S129x64_S4096x64_1_0_0_1_n_n : DotDims S4096x129 S129x64 S4096x64 where
  lhsContracting := [1]
  rhsContracting := [0]
  lhsNonContracting := [0]
  rhsNonContracting := [1]
  lhsBatch := []
  rhsBatch := []
  wf := dot_S4096x129_S129x64_S4096x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v30) S4096x129.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S129x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S129x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg13) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg14) S64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg15) S64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v31_0) S4096x64.size cc1_transform_9 reads1_9 true true 1 stage1_9 sem1_9
    hrank1 hreads1_9 hinb1_9 nbuf1_9 (Memref.isWhole_whole _) hwx1_9 hstage1_9

abbrev win1_10 : Pipeline.Window sig grid1 :=
  Pipeline.Window.ofSpec (Memref.whole main_v31_1) S4096x64.size cc1_transform_10 reads1_10 true true 1 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S500000x128 : Shape := ⟨2, ![500000, 128]⟩
abbrev S2x600000 : Shape := ⟨2, ![2, 600000]⟩
abbrev S600000 : Shape := ⟨1, ![600000]⟩
abbrev S4096x1 : Shape := ⟨2, ![4096, 1]⟩
abbrev S500000 : Shape := ⟨1, ![500000]⟩
abbrev S128x128 : Shape := ⟨2, ![128, 128]⟩
abbrev S128 : Shape := ⟨1, ![128]⟩
abbrev S129x64 : Shape := ⟨2, ![129, 64]⟩
abbrev S64 : Shape := ⟨1, ![64]⟩
abbrev S1x600000 : Shape := ⟨2, ![1, 600000]⟩
abbrev S600000x1 : Shape := ⟨2, ![600000, 1]⟩
abbrev S_ : Shape := ⟨0, ![]⟩
abbrev S600000x128 : Shape := ⟨2, ![600000, 128]⟩
abbrev S1x128 : Shape := ⟨2, ![1, 128]⟩
abbrev S4096x128 : Shape := ⟨2, ![4096, 128]⟩
abbrev S500000x1 : Shape := ⟨2, ![500000, 1]⟩
abbrev S4096 : Shape := ⟨1, ![4096]⟩
abbrev S4096x129 : Shape := ⟨2, ![4096, 129]⟩
abbrev S4096x64 : Shape := ⟨2, ![4096, 64]⟩
abbrev S1x64 : Shape := ⟨2, ![1, 64]⟩

abbrev nBuf : Space → Nat
  | .hbm => 142
  | .vmem => 0
  | .smem => 0
  | _ => 0

abbrev hbmTy0_0 (i : Nat) : BufTy := match i % 128 with
  | 0 => ⟨S500000x128, .f32⟩
  | 1 => ⟨S2x600000, .i32⟩
  | 2 => ⟨S600000, .f32⟩
  | 3 => ⟨S4096x1, .f32⟩
  | 4 => ⟨S500000, .i32⟩
  | 5 => ⟨S128x128, .f32⟩
  | 6 => ⟨S128x128, .f32⟩
  | 7 => ⟨S128, .f32⟩
  | 8 => ⟨S129x64, .f32⟩
  | 9 => ⟨S64, .f32⟩
  | 10 => ⟨S64, .f32⟩
  | 11 => ⟨S64, .f32⟩
  | 12 => ⟨S129x64, .f32⟩
  | 13 => ⟨S64, .f32⟩
  | 14 => ⟨S64, .f32⟩
  | 15 => ⟨S64, .f32⟩
  | 16 => ⟨S1x600000, .i32⟩
  | 17 => ⟨S600000, .i32⟩
  | 18 => ⟨S1x600000, .i32⟩
  | 19 => ⟨S600000, .i32⟩
  | 20 => ⟨S600000x1, .f32⟩
  | 21 => ⟨S_, .i32⟩
  | 22 => ⟨S600000, .i32⟩
  | 23 => ⟨S600000, .i1⟩
  | 24 => ⟨S_, .i32⟩
  | 25 => ⟨S600000, .i32⟩
  | 26 => ⟨S600000, .i32⟩
  | 27 => ⟨S600000, .i32⟩
  | 28 => ⟨S600000x1, .i32⟩
  | 29 => ⟨S600000x128, .f32⟩
  | 30 => ⟨S600000x128, .f32⟩
  | 31 => ⟨S600000x128, .f32⟩
  | 32 => ⟨S_, .f32⟩
  | 33 => ⟨S500000x128, .f32⟩
  | 34 => ⟨S600000x1, .i32⟩
  | 35 => ⟨S500000x128, .f32⟩
  | 36 => ⟨S500000x128, .f32⟩
  | 37 => ⟨S500000x128, .f32⟩
  | 38 => ⟨S500000x128, .f32⟩
  | 39 => ⟨S1x128, .f32⟩
  | 40 => ⟨S500000x128, .f32⟩
  | 41 => ⟨S500000x128, .f32⟩
  | 42 => ⟨S_, .f32⟩
  | 43 => ⟨S500000x128, .f32⟩
  | 44 => ⟨S500000x128, .f32⟩
  | 45 => ⟨S_, .f32⟩
  | 46 => ⟨S4096x128, .f32⟩
  | 47 => ⟨S500000x1, .i32⟩
  | 48 => ⟨S4096x128, .f32⟩
  | 49 => ⟨S_, .f32⟩
  | 50 => ⟨S500000, .f32⟩
  | 51 => ⟨S_, .f32⟩
  | 52 => ⟨S4096, .f32⟩
  | 53 => ⟨S500000x1, .i32⟩
  | 54 => ⟨S4096, .f32⟩
  | 55 => ⟨S_, .f32⟩
  | 56 => ⟨S4096, .f32⟩
  | 57 => ⟨S4096, .f32⟩
  | 58 => ⟨S4096x1, .f32⟩
  | 59 => ⟨S4096x128, .f32⟩
  | 60 => ⟨S4096x128, .f32⟩
  | 61 => ⟨S4096x129, .f32⟩
  | 62 => ⟨S4096x64, .f32⟩
  | 63 => ⟨S1x64, .f32⟩
  | 64 => ⟨S4096x64, .f32⟩
  | 65 => ⟨S4096x64, .f32⟩
  | 66 => ⟨S_, .f32⟩
  | 67 => ⟨S64, .f32⟩
  | 68 => ⟨S1x64, .f32⟩
  | 69 => ⟨S_, .f32⟩
  | 70 => ⟨S1x64, .f32⟩
  | 71 => ⟨S1x64, .f32⟩
  | 72 => ⟨S4096x64, .f32⟩
  | 73 => ⟨S4096x64, .f32⟩
  | 74 => ⟨S4096x64, .f32⟩
  | 75 => ⟨S_, .f32⟩
  | 76 => ⟨S64, .f32⟩
  | 77 => ⟨S1x64, .f32⟩
  | 78 => ⟨S_, .f32⟩
  | 79 => ⟨S1x64, .f32⟩
  | 80 => ⟨S1x64, .f32⟩
  | 81 => ⟨S4096x64, .f32⟩
  | 82 => ⟨S4096x64, .f32⟩
  | 83 => ⟨S_, .f32⟩
  | 84 => ⟨S1x64, .f32⟩
  | 85 => ⟨S1x64, .f32⟩
  | 86 => ⟨S1x64, .f32⟩
  | 87 => ⟨S4096x64, .f32⟩
  | 88 => ⟨S4096x64, .f32⟩
  | 89 => ⟨S1x64, .f32⟩
  | 90 => ⟨S4096x64, .f32⟩
  | 91 => ⟨S4096x64, .f32⟩
  | 92 => ⟨S1x64, .f32⟩
  | 93 => ⟨S4096x64, .f32⟩
  | 94 => ⟨S4096x64, .f32⟩
  | 95 => ⟨S_, .f32⟩
  | 96 => ⟨S4096x64, .f32⟩
  | 97 => ⟨S4096x64, .f32⟩
  | 98 => ⟨S4096x64, .f32⟩
  | 99 => ⟨S1x64, .f32⟩
  | 100 => ⟨S4096x64, .f32⟩
  | 101 => ⟨S4096x64, .f32⟩
  | 102 => ⟨S_, .f32⟩
  | 103 => ⟨S64, .f32⟩
  | 104 => ⟨S1x64, .f32⟩
  | 105 => ⟨S_, .f32⟩
  | 106 => ⟨S1x64, .f32⟩
  | 107 => ⟨S1x64, .f32⟩
  | 108 => ⟨S4096x64, .f32⟩
  | 109 => ⟨S4096x64, .f32⟩
  | 110 => ⟨S4096x64, .f32⟩
  | 111 => ⟨S_, .f32⟩
  | 112 => ⟨S64, .f32⟩
  | 113 => ⟨S1x64, .f32⟩
  | 114 => ⟨S_, .f32⟩
  | 115 => ⟨S1x64, .f32⟩
  | 116 => ⟨S1x64, .f32⟩
  | 117 => ⟨S4096x64, .f32⟩
  | 118 => ⟨S4096x64, .f32⟩
  | 119 => ⟨S_, .f32⟩
  | 120 => ⟨S1x64, .f32⟩
  | 121 => ⟨S1x64, .f32⟩
  | 122 => ⟨S1x64, .f32⟩
  | 123 => ⟨S4096x64, .f32⟩
  | 124 => ⟨S4096x64, .f32⟩
  | 125 => ⟨S1x64, .f32⟩
  | 126 => ⟨S4096x64, .f32⟩
  | 127 => ⟨S4096x64, .f32⟩
  | _ => ⟨S500000x128, .f32⟩

abbrev hbmTy0_1 (i : Nat) : BufTy := match i % 128 with
  | 0 => ⟨S1x64, .f32⟩
  | 1 => ⟨S4096x64, .f32⟩
  | 2 => ⟨S4096x64, .f32⟩
  | 3 => ⟨S_, .f32⟩
  | 4 => ⟨S4096x64, .f32⟩
  | 5 => ⟨S4096x64, .f32⟩
  | 6 => ⟨S4096x64, .f32⟩
  | 7 => ⟨S4096x64, .f32⟩
  | 8 => ⟨S_, .f32⟩
  | 9 => ⟨S4096x64, .f32⟩
  | 10 => ⟨S4096x64, .f32⟩
  | 11 => ⟨S_, .f32⟩
  | 12 => ⟨S4096x64, .f32⟩
  | 13 => ⟨S4096x64, .f32⟩
  | _ => ⟨S500000x128, .f32⟩

abbrev hbmTy (i : Nat) : BufTy := match i / 128 with
  | 0 => hbmTy0_0 i
  | 1 => hbmTy0_1 i
  | _ => ⟨S500000x128, .f32⟩

abbrev bufTy : (tb : Table) → Fin (tcTables nBuf tb) → BufTy
  | .hbm, ⟨i, _⟩ => hbmTy i
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call0_cst : Ref sig .tc := ⟨.hbm, 42, rfl⟩
abbrev main_call0_v0 : Ref sig .tc := ⟨.hbm, 43, rfl⟩
abbrev main_v23 : Ref sig .tc := ⟨.hbm, 44, rfl⟩
abbrev main_cst_1 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_2 : Ref sig .tc := ⟨.hbm, 49, rfl⟩
abbrev main_v27 : Ref sig .tc := ⟨.hbm, 50, rfl⟩
abbrev main_cst_3 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_4 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_5 : Ref sig .tc := ⟨.hbm, 66, rfl⟩
abbrev main_v41 : Ref sig .tc := ⟨.hbm, 67, rfl⟩
abbrev main_v42 : Ref sig .tc := ⟨.hbm, 68, rfl⟩
abbrev main_cst_6 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_7 : Ref sig .tc := ⟨.hbm, 75, rfl⟩
abbrev main_v48 : Ref sig .tc := ⟨.hbm, 76, rfl⟩
abbrev main_v49 : Ref sig .tc := ⟨.hbm, 77, rfl⟩
abbrev main_cst_8 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_9 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_call1_cst : Ref sig .tc := ⟨.hbm, 95, rfl⟩
abbrev main_call1_v0 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_10 : Ref sig .tc := ⟨.hbm, 102, rfl⟩
abbrev main_v70 : Ref sig .tc := ⟨.hbm, 103, rfl⟩
abbrev main_v71 : Ref sig .tc := ⟨.hbm, 104, rfl⟩
abbrev main_cst_11 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_12 : Ref sig .tc := ⟨.hbm, 111, rfl⟩
abbrev main_v77 : Ref sig .tc := ⟨.hbm, 112, rfl⟩
abbrev main_v78 : Ref sig .tc := ⟨.hbm, 113, rfl⟩
abbrev main_cst_13 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_14 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_call2_cst : Ref sig .tc := ⟨.hbm, 131, rfl⟩
abbrev main_call2_v0 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_15 : Ref sig .tc := ⟨.hbm, 136, rfl⟩
abbrev main_v97 : Ref sig .tc := ⟨.hbm, 137, rfl⟩
abbrev main_v98 : Ref sig .tc := ⟨.hbm, 138, rfl⟩
abbrev main_cst_16 : Ref sig .tc := ⟨.hbm, 139, rfl⟩
abbrev main_v99 : Ref sig .tc := ⟨.hbm, 140, rfl⟩
abbrev main_v100 : Ref sig .tc := ⟨.hbm, 141, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S500000x128 : S_.BroadcastsInDim S500000x128 (![] : Fin 0 → Fin S500000x128.rank)
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S4096x128 : S_.BroadcastsInDim S4096x128 (![] : Fin 0 → Fin S4096x128.rank)
  bcast_S500000_S500000x1_0 : S500000.BroadcastsInDim S500000x1 (![0] : Fin 1 → Fin S500000x1.rank)
  bcast_S_S500000 : S_.BroadcastsInDim S500000 (![] : Fin 0 → Fin S500000.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  concatenates_S4096x128_S4096x1_S4096x129_d1 : Shape.Concatenates [S4096x128, S4096x1] S4096x129 1
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  reducesTo_S4096x64_S64_d0 : S4096x64.ReducesTo [0] S64
  h_S_ : 0 < S_.numel
  bcast_S_S1x64 : S_.BroadcastsInDim S1x64 (![] : Fin 0 → Fin S1x64.rank)
  bcast_S_S4096x64 : S_.BroadcastsInDim S4096x64 (![] : Fin 0 → Fin S4096x64.rank)
  gather_S500000x128_S600000x1_S600000x128_1_0_n_n_0_1_1128_wf : GatherDims.WF S500000x128 S600000x1 S600000x128 [1] [0] [] [0] [] 1 ![1, 128]
  scatter_S500000x128_S600000x1_S600000x128_1_0_0_1_wf : ScatterDims.WF S500000x128 S600000x1 S600000x128 [1] [0] [0] 1
  dot_S500000x128_S128x128_S500000x128_1_0_0_1_n_n_wf : DotDims.WF S500000x128 S128x128 S500000x128 [1] [0] [0] [1] [] []
  scatter_S4096x128_S500000x1_S500000x128_1_0_0_1_wf : ScatterDims.WF S4096x128 S500000x1 S500000x128 [1] [0] [0] 1
  scatter_S4096_S500000x1_S500000_n_0_0_1_wf : ScatterDims.WF S4096 S500000x1 S500000 [] [0] [0] 1
  dot_S4096x129_S129x64_S4096x64_1_0_0_1_n_n_wf : DotDims.WF S4096x129 S129x64 S4096x64 [1] [0] [0] [1] [] []

variable [Facts₀]

def gather_S500000x128_S600000x1_S600000x128_1_0_n_n_0_1_1128 : GatherDims S500000x128 S600000x1 S600000x128 where
  offsetDims := [1]
  collapsedSliceDims := [0]
  operandBatchingDims := []
  startIndicesBatchingDims := []
  startIndexMap := [0]
  indexVectorDim := 1
  sliceSizes := ![1, 128]
  wf := gather_S500000x128_S600000x1_S600000x128_1_0_n_n_0_1_1128_wf
def scatter_S500000x128_S600000x1_S600000x128_1_0_0_1 : ScatterDims S500000x128 S600000x1 S600000x128 where
  updateWindowDims := [1]
  insertedWindowDims := [0]
  scatterDimsToOperandDims := [0]
  indexVectorDim := 1
  wf := scatter_S500000x128_S600000x1_S600000x128_1_0_0_1_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def scatter_S4096x128_S500000x1_S500000x128_1_0_0_1 : ScatterDims S4096x128 S500000x1 S500000x128 where
  updateWindowDims := [1]
  insertedWindowDims := [0]
  scatterDimsToOperandDims := [0]
  indexVectorDim := 1
  wf := scatter_S4096x128_S500000x1_S500000x128_1_0_0_1_wf
def scatter_S4096_S500000x1_S500000_n_0_0_1 : ScatterDims S4096 S500000x1 S500000 where
  updateWindowDims := []
  insertedWindowDims := [0]
  scatterDimsToOperandDims := [0]
  indexVectorDim := 1
  wf := scatter_S4096_S500000x1_S500000_n_0_0_1_wf
def dot_S4096x129_S129x64_S4096x64_1_0_0_1_n_n : DotDims S4096x129 S129x64 S4096x64 where
  lhsContracting := [1]
  rhsContracting := [0]
  lhsNonContracting := [0]
  rhsNonContracting := [1]
  lhsBatch := []
  rhsBatch := []
  wf := dot_S4096x129_S129x64_S4096x64_1_0_0_1_n_n_wf

class Facts : Prop extends Facts₀ where

variable [Facts]
-- ==== Proof.Spec.lean ====
/-
  What the graph encoder computes, entry by entry, on the extended reals.

  Three pieces, each one function of whole arrays:

  * the node embedding: entry (p, q) of relu(x · W_self + msg · W_nbr + b) is
      max((Σ_k x(p,k) · W_self(k,q) + Σ_k msg(p,k) · W_nbr(k,q)) + b(q), 0),
    a function of row p of x and of msg only, so the same formula describes a block of rows and the whole array;
  * a head's affine map: a(i, j) = Σ_k h(i,k) · W(k,j) + b(j) over the 4096 graphs and 64 features;
  * batch normalisation over the 4096 graphs followed by relu: with mean(j) = (Σ_i a(i,j)) / 4096 and
    var(j) = (Σ_i (a(i,j) − mean(j))²) / 4096,
      z(i, j) = max(((a(i,j) − mean(j)) · rsqrt(var(j) + ε)) · γ(j) + β(j), 0),
    and for the second head the logistic function of that.

  The constants 4096, ε and 0 are kept as the float patterns both programs spell; none is evaluated here.
-/
import Idealize.ShloMosaic.PureOps.Ideal
import Idealize.ShloMosaic.Lib.ValueIdx

noncomputable section

namespace Cert.GraphEnc

open Idealize.ShloMosaic Idealize.ShloMosaic.ValueIdx

/-- The pattern of 0.0. -/
abbrev zeroF : EReal := Ideal.ofBits .f32 0x00000000#32
/-- The pattern of 4096.0, the number of graphs. -/
abbrev nGraphs : EReal := Ideal.ofBits .f32 0x45800000#32
/-- The pattern of the batch-norm ε. -/
abbrev bnEps : EReal := Ideal.ofBits .f32 0x3727C5AC#32

/-- Entry (p, q) of the node embedding over `n` rows: it reads row `p` of `x` and of `msg`, column `q` of the two weight
    matrices, and entry `q` of the bias. -/
def embedAt {n : ℕ} (x msg : (⟨2, ![n, 128]⟩ : Shape).Idx → EReal) (ws wn : (⟨2, ![128, 128]⟩ : Shape).Idx → EReal)
    (b : (⟨1, ![128]⟩ : Shape).Idx → EReal) (p : Fin n) (q : Fin 128) : EReal :=
  max (((∑ k : Fin 128, x (ix2 p k) * ws (ix2 k q)) + (∑ k : Fin 128, msg (ix2 p k) * wn (ix2 k q))) + b (ix1 q)) zeroF

/-- The entry depends only on row `p` of `x` and `msg`, column `q` of the weights and entry `q` of the bias: two sets of
    arrays that agree there give the same entry (a block of rows against the whole array). -/
theorem embedAt_congr {n n' : ℕ} {x msg : (⟨2, ![n, 128]⟩ : Shape).Idx → EReal} {x' msg' : (⟨2, ![n', 128]⟩ : Shape).Idx → EReal}
    {ws wn ws' wn' : (⟨2, ![128, 128]⟩ : Shape).Idx → EReal} {b b' : (⟨1, ![128]⟩ : Shape).Idx → EReal}
    {p : Fin n} {p' : Fin n'} {q : Fin 128}
    (hx : ∀ k : Fin 128, x (ix2 p k) = x' (ix2 p' k)) (hm : ∀ k : Fin 128, msg (ix2 p k) = msg' (ix2 p' k))
    (hws : ∀ k : Fin 128, ws (ix2 k q) = ws' (ix2 k q)) (hwn : ∀ k : Fin 128, wn (ix2 k q) = wn' (ix2 k q))
    (hb : b (ix1 q) = b' (ix1 q)) :
    embedAt x msg ws wn b p q = embedAt x' msg' ws' wn' b' p' q := by
  unfold embedAt
  simp only [hx, hm, hws, hwn, hb]

/-- The node embedding of all 500000 nodes. -/
def embed (x msg : (⟨2, ![500000, 128]⟩ : Shape).Idx → EReal) (ws wn : (⟨2, ![128, 128]⟩ : Shape).Idx → EReal)
    (b : (⟨1, ![128]⟩ : Shape).Idx → EReal) : (⟨2, ![500000, 128]⟩ : Shape).Idx → EReal :=
  fun i => embedAt x msg ws wn b (i 0) (i 1)

/-- A head's affine map at graph `i`, feature `j`. -/
def lin (h : (⟨2, ![4096, 129]⟩ : Shape).Idx → EReal) (W : (⟨2, ![129, 64]⟩ : Shape).Idx → EReal)
    (b : (⟨1, ![64]⟩ : Shape).Idx → EReal) (i : Fin 4096) (j : Fin 64) : EReal :=
  (∑ k : Fin 129, h (ix2 i k) * W (ix2 k j)) + b (ix1 j)

/-- The mean of feature `j` over the graphs. -/
def colMean (a : Fin 4096 → Fin 64 → EReal) (j : Fin 64) : EReal :=
  Ideal.div (∑ i : Fin 4096, a i j) nGraphs

/-- The (biased) variance of feature `j` over the graphs. -/
def colVar (a : Fin 4096 → Fin 64 → EReal) (j : Fin 64) : EReal :=
  Ideal.div (∑ i : Fin 4096, (a i j - colMean a j) * (a i j - colMean a j)) nGraphs

/-- Batch normalisation with scale `g` and shift `bt`, then relu. -/
def bnRelu (a : Fin 4096 → Fin 64 → EReal) (g bt : (⟨1, ![64]⟩ : Shape).Idx → EReal) (i : Fin 4096) (j : Fin 64) : EReal :=
  max ((((a i j - colMean a j) * Ideal.rsqrt (colVar a j + bnEps)) * g (ix1 j)) + bt (ix1 j)) zeroF

/-- The mean head: Linear, batch norm, relu. -/
def zmu (h : (⟨2, ![4096, 129]⟩ : Shape).Idx → EReal) (W : (⟨2, ![129, 64]⟩ : Shape).Idx → EReal)
    (b g bt : (⟨1, ![64]⟩ : Shape).Idx → EReal) : (⟨2, ![4096, 64]⟩ : Shape).Idx → EReal :=
  fun i => bnRelu (lin h W b) g bt (i 0) (i 1)

/-- The log-variance head: the same followed by the logistic function. -/
def zlogvar (h : (⟨2, ![4096, 129]⟩ : Shape).Idx → EReal) (W : (⟨2, ![129, 64]⟩ : Shape).Idx → EReal)
    (b g bt : (⟨1, ![64]⟩ : Shape).Idx → EReal) : (⟨2, ![4096, 64]⟩ : Shape).Idx → EReal :=
  fun i => Ideal.logistic (bnRelu (lin h W b) g bt (i 0) (i 1))

end Cert.GraphEnc

end
-- ==== Proof.LibPlainDot.lean ====
/-
  A plain matrix product read at an index, on the extended reals.

  For the dimension numbers of an M×K by K×N product (contract the left operand's axis 1 with the right operand's
  axis 0, no batch axis), the product at row `r`, column `n` is the sum over the K contraction positions of
  `l (r, k) · r' (k, n)`. The contraction index of the dimension record is a one-coordinate index; it is re-indexed by
  that coordinate, and the operand indices at an output index and a contraction position are read off coordinate by
  coordinate. Stated for a kernel's matrix unit accumulating into the zero splat and for a host `dot_general`.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The contraction shape of a plain product has one axis, -/
theorem contr_rank : (DotDims.plain M K N).contr.rank = 1 := rfl

/-- of extent K. -/
theorem contr_size : (DotDims.plain M K N).contr.size ⟨0, by rw [contr_rank]; exact Nat.one_pos⟩ = K := rfl

/-- The left operand's index at output index `j` and contraction position `k` is (row of `j`, `k`). -/
theorem lhsIdx_eq (j : (⟨2, ![M, N]⟩ : Shape).Idx) (k : Fin K) :
    (DotDims.plain M K N).lhsIdx j ((contrEquiv1 (DotDims.plain M K N) K (contr_rank M K N) (contr_size M K N)).symm k)
      = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand's index at output index `j` and contraction position `k` is (`k`, column of `j`). -/
theorem rhsIdx_eq (j : (⟨2, ![M, N]⟩ : Shape).Idx) (k : Fin K) :
    (DotDims.plain M K N).rhsIdx j ((contrEquiv1 (DotDims.plain M K N) K (contr_rank M K N) (contr_size M K N)).symm k)
      = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The sum over the record's contraction index is the sum over the K positions. -/
theorem sum_contr (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K (contr_rank M K N) (contr_size M K N)).symm]
  exact Finset.sum_congr rfl fun k _ =>
    congrArg₂ (fun a b => l a * r b) (lhsIdx_eq M K N j k) (rhsIdx_eq M K N j k)

/-- A kernel's matrix unit accumulating into the zero splat, at an index: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_contr M K N l r j)

/-- A host `dot_general` at an index: the same sum, whatever the precision and schedule keys. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_contr M K N l r j)

end Cert.LibPlainDot

end
-- ==== Proof.EmbedBlock.lean ====
/-
  The embedding kernel's stored value at an entry of its block.

  The body loads a 5000-row block of x and of msg, the two 128×128 weight matrices and the bias, rounds the matrix
  operands to bf16 (the identity on the extended reals), multiplies each block by its weights into a zero accumulator,
  adds the two products, adds the bias row spread down the rows, and takes the maximum with 0. At row p, column q of
  the block that is the embedding formula of the specification, read on the block's rows.
-/
import proofs.«129031_j29016799052365_1_alg».proof.Proof.Gen.KernelIdeal.Skeleton
import proofs.«129031_j29016799052365_1_alg».proof.Proof.Spec
import proofs.«129031_j29016799052365_1_alg».proof.Proof.LibPlainDot
import Idealize.ShloMosaic.Lib.ValueLayout
import Idealize.ShloMosaic.Lib.Pipeline.Value

noncomputable section

namespace Cert.GraphEnc.EmbedBlock

open Idealize.ShloMosaic Idealize.ShloMosaic.ValueIdx Cert.KernelIdeal Cert.KernelIdeal.Gen Cert.GraphEnc

/-- A block's product with a weight matrix into the zero accumulator, at (p, q): the sum over the 128 contraction
    positions. -/
theorem dot_apply (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) :=
  Cert.LibPlainDot.matmul_zero_apply 5000 128 128 none l r (ix2 p q)

/-- The bias laid out as a row and spread down the 5000 rows reads, at (p, q), its entry q. -/
theorem bias_apply (b : FVec Ideal S128 .f32) (p : Fin 5000) (q : Fin 128) :
    broadcastTo S5000x128 (shapeCast S1x128 b shapeCasts_S128_S1x128) broadcasts_S1x128_S5000x128 (ix2 p q) = b (ix1 q) :=
  (broadcastTo_1b_ab_apply _ broadcasts_S1x128_S5000x128 p q).trans (shapeCast_a_1a_apply b shapeCasts_S128_S1x128 0 q)

/-- The stored value at (p, q) of the block is the embedding formula on the block's rows. -/
theorem pay_apply (x0 x1 : FVec Ideal S5000x128 .f32) (x2 x3 : FVec Ideal S128x128 .f32) (x4 : FVec Ideal S128 .f32)
    (p : Fin 5000) (q : Fin 128) :
    k0_pay1 (F := Ideal) x0 x1 x2 x3 x4 (ix2 p q) = embedAt x0 x1 x2 x3 x4 p q := by
  unfold k0_pay1 embedAt
  rw [maximumf_apply, addf_apply, addf_apply, dot_apply, dot_apply, bias_apply, shapeCast_self]
  rfl

end Cert.GraphEnc.EmbedBlock

end
-- ==== Proof.EmbedArray.lean ====
/-
  The embedding kernel's output array after its 100 grid points.

  Point t stages rows 5000·t … 5000·t + 4999 of x and of msg, the whole of the two weight matrices and of the bias,
  and writes back rows 5000·t … 5000·t + 4999 of the output. An entry (r, q) of the output therefore comes from the
  point t = r / 5000, whose block holds, at row r − 5000·t, the embedding formula on the block's rows — which are
  rows of the whole arrays. So the output array is the node embedding of the arrays the region found, whatever
  those are: the statement is for any contents `V` of the TensorCore's buffers at the region's entry.
-/
import proofs.«129031_j29016799052365_1_alg».proof.Proof.Gen.KernelIdeal.Frame
import proofs.«129031_j29016799052365_1_alg».proof.Proof.EmbedBlock
import Idealize.ShloMosaic.Lib.Pipeline.Value

set_option maxRecDepth 16384

noncomputable section

namespace Cert.GraphEnc.EmbedArray

open Idealize.ShloMosaic Idealize.ShloMosaic.TcCoe Idealize.ShloMosaic.ValueIdx Idealize.SL.Sem
open Cert.KernelIdeal Cert.KernelIdeal.Gen Cert.GraphEnc
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the three row-tiled windows are at row block t, the resident ones at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Row p of point t's block is row 5000·t + p of the array. -/
def row (t : Fin cfg0.N) (p : Fin 5000) : Fin 500000 :=
  ⟨t.val * 5000 + p.val, by have h : t.val < 100 := Nat.lt_of_lt_of_eq t.isLt N_0
                            have := p.isLt; omega⟩

/-- The node embedding of the arrays the region finds. -/
def G (c : Dev nD) : S500000x128.Idx → EReal :=
  embed (V c main_arg0 : S500000x128.Idx → EReal) (V c main_v16 : S500000x128.Idx → EReal)
    (V c main_arg5 : S128x128.Idx → EReal) (V c main_arg6 : S128x128.Idx → EReal) (V c main_arg7 : S128.Idx → EReal)

/-- The block of x at point t, read at (p, k). -/
theorem x_read (c : Dev nD) (t : Fin cfg0.N) (p : Fin 5000) (k : Fin 128) :
    (iblk0 V c 0 t : S5000x128.Idx → EReal) (ix2 p k) = (V c main_arg0 : S500000x128.Idx → EReal) (ix2 (row t p) k) := by
  obtain ⟨e0, e1, -⟩ := idx_facts t
  show (V c main_arg0 : S500000x128.Idx → EReal) (((cfg0.win 0).blk t).view.emb (ix2 p k)) = _
  refine congrArg (V c main_arg0 : S500000x128.Idx → EReal) ?_
  funext a; apply Fin.ext
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- The block of msg at point t, read at (p, k). -/
theorem msg_read (c : Dev nD) (t : Fin cfg0.N) (p : Fin 5000) (k : Fin 128) :
    (iblk0 V c 1 t : S5000x128.Idx → EReal) (ix2 p k) = (V c main_v16 : S500000x128.Idx → EReal) (ix2 (row t p) k) := by
  obtain ⟨-, -, e0, e1, -⟩ := idx_facts t
  show (V c main_v16 : S500000x128.Idx → EReal) (((cfg0.win 1).blk t).view.emb (ix2 p k)) = _
  refine congrArg (V c main_v16 : S500000x128.Idx → EReal) ?_
  funext a; apply Fin.ext
  match a with
  | ⟨0, _⟩ => show win0_1.index t (0 : Fin 2) * 5000 + 1 * p.val = t.val * 5000 + p.val; rw [e0]; omega
  | ⟨1, _⟩ => show win0_1.index t (1 : Fin 2) * 128 + 1 * k.val = k.val; rw [e1]; omega

/-- The resident W_self block is the whole matrix. -/
theorem ws_read (c : Dev nD) (t : Fin cfg0.N) (k q : Fin 128) :
    (iblk0 V c 2 t : S128x128.Idx → EReal) (ix2 k q) = (V c main_arg5 : S128x128.Idx → EReal) (ix2 k q) := by
  obtain ⟨-, -, -, -, e0, e1, -⟩ := idx_facts t
  show (V c main_arg5 : S128x128.Idx → EReal) (((cfg0.win 2).blk t).view.emb (ix2 k q)) = _
  refine congrArg (V c main_arg5 : S128x128.Idx → EReal) ?_
  funext a; apply Fin.ext
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- The resident W_nbr block is the whole matrix. -/
theorem wn_read (c : Dev nD) (t : Fin cfg0.N) (k q : Fin 128) :
    (iblk0 V c 3 t : S128x128.Idx → EReal) (ix2 k q) = (V c main_arg6 : S128x128.Idx → EReal) (ix2 k q) := by
  obtain ⟨-, -, -, -, -, -, e0, e1, -⟩ := idx_facts t
  show (V c main_arg6 : S128x128.Idx → EReal) (((cfg0.win 3).blk t).view.emb (ix2 k q)) = _
  refine congrArg (V c main_arg6 : S128x128.Idx → EReal) ?_
  funext a; apply Fin.ext
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- The resident bias block is the whole vector. -/
theorem b_read (c : Dev nD) (t : Fin cfg0.N) (q : Fin 128) :
    (iblk0 V c 4 t : S128.Idx → EReal) (ix1 q) = (V c main_arg7 : S128.Idx → EReal) (ix1 q) := by
  obtain ⟨-, -, -, -, -, -, -, -, e0, -⟩ := idx_facts t
  show (V c main_arg7 : S128.Idx → EReal) (((cfg0.win 4).blk t).view.emb (ix1 q)) = _
  refine congrArg (V c main_arg7 : S128.Idx → EReal) ?_
  funext a; apply Fin.ext
  match a with
  | ⟨0, _⟩ => show win0_4.index t (0 : Fin 1) * 128 + 1 * q.val = q.val; rw [e0]; omega

/-- What point t writes back is block t of the node embedding. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz2]
  simp only [View.ld_unit_zero (S := S5000x128) hz2, View.ld_unit_zero (S := S128x128) hz2, View.ld_unit_zero (S := S128) hz1]
  obtain ⟨-, -, -, -, -, -, -, -, -, e0, e1⟩ := idx_facts t
  funext y
  obtain ⟨p, q, rfl⟩ : ∃ (p : Fin 5000) (q : Fin 128), y = ix2 p q := ⟨y 0, y 1, eq_ix2 y⟩
  refine (EmbedBlock.pay_apply _ _ _ _ _ p q).trans ?_
  have hemb : ((cfg0.win 5).blk t).view.emb (ix2 p q) = (ix2 (row t p) q : S500000x128.Idx) := by
    funext a; apply Fin.ext
    match a with
    | ⟨0, _⟩ => show win0_5.index t (0 : Fin 2) * 5000 + 1 * p.val = t.val * 5000 + p.val; rw [e0]; omega
    | ⟨1, _⟩ => show win0_5.index t (1 : Fin 2) * 128 + 1 * q.val = q.val; rw [e1]; omega
  show _ = G V c (((cfg0.win 5).blk t).view.emb (ix2 p q))
  rw [hemb]
  show _ = embedAt (V c main_arg0 : S500000x128.Idx → EReal) (V c main_v16 : S500000x128.Idx → EReal)
    (V c main_arg5 : S128x128.Idx → EReal) (V c main_arg6 : S128x128.Idx → EReal) (V c main_arg7 : S128.Idx → EReal) (row t p) q
  exact embedAt_congr (fun k => x_read V c t p k) (fun k => msg_read V c t p k) (fun k => ws_read V c t k q)
    (fun k => wn_read V c t k q) (b_read V c t q)

/-- An index is in point t's block iff each coordinate is in the block's range on its axis. -/
theorem mem_blk (t : Fin cfg0.N) (i : S500000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v17).slice (win0_5.rect t)).set ↔ _
  rw [View.set_slice_whole, Rect.mem_set_unit]
  exact Iff.rfl

/-- Every entry of the output is in the block of the point its row falls in. -/
theorem cover (i : S500000x128.Idx) :
    ∃ t : Fin cfg0.N, (cfg0.win 5).flush t = true ∧ i ∈ ((cfg0.win 5).blk t).view.set := by
  have hi0 : (i 0).val < 500000 := (i 0).isLt
  have hi1 : (i 1).val < 128 := (i 1).isLt
  have hN : cfg0.N = 100 := N_0
  let t : Fin cfg0.N := ⟨(i 0).val / 5000, by rw [hN]; omega⟩
  obtain ⟨-, -, -, -, -, -, -, -, -, e0, e1⟩ := idx_facts t
  have ht : t.val = (i 0).val / 5000 := rfl
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    rw [e0, ht]; omega
  | ⟨1, _⟩ =>
    show win0_5.index t (1 : Fin 2) * 128 ≤ (i 1).val ∧ (i 1).val < win0_5.index t (1 : Fin 2) * 128 + 128
    rw [e1]; omega

/-- The output array after the region: the node embedding of the arrays it found. -/
theorem final (c : Dev nD) : (dat0 V c).arrAt 5 cfg0.N = G V c :=
  (dat0 V c).arrAt_eq_of_cover 5 (G V c) (fun t _ => flushed_eq V c t) cover

end Cert.GraphEnc.EmbedArray

end
-- ==== Proof.LibSublaneSum.lean ====
/-
  A column sum of a matrix, read by coordinates.

  A float sum of an `[a, b]` array over its first axis, started from the zero pattern, is at column `c` the sum over the
  row coordinate `k` of the entry `(k, c)`: on the extended reals a sum has no order, and the zero it starts from adds
  nothing. Stated for any extents; the companion of the lane sum (the sum over the second axis).
-/
import Idealize.ShloMosaic.Lib.Pipeline.Value
import Idealize.ShloMosaic.Lib.ValueIdx
import Idealize.ShloMosaic.PureOps.Ideal.Laws

namespace Cert.SublaneSum

open Idealize.ShloMosaic Idealize.ShloMosaic.ValueIdx

/-- A float sum of an `[a, b]` array over axis 0 from the zero pattern, read at column `c`, is the sum over the row
    coordinate `k` of the entry `(k, c)`. -/
theorem sublaneSum_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (c : Fin b) :
    multiReduction .add [0] ⟨1, ![b]⟩ src 0x00000000#32 h hφ hacc (ix1 c) = ∑ k : Fin a, src (ix2 k c) := by
  refine (Ideal.multiReduction_add_single src _ h hφ hacc (ix1 c)).trans ?_
  refine Finset.sum_congr rfl fun k _ => congrArg src ?_
  funext d
  apply Fin.ext
  match d with
  | ⟨0, _⟩ => rfl
  | ⟨1, _⟩ => rfl

end Cert.SublaneSum
-- ==== Proof.HeadsBlock.lean ====
/-
  The heads kernel's two stored values at an entry.

  The body computes, for each head, the affine map of the pooled features (a matrix product into a zero accumulator
  plus a bias row), then batch normalisation down the 4096 rows — the column sums divided by 4096 for the mean, the
  column sums of the squared deviations divided by 4096 for the variance, the deviation times rsqrt(variance + ε)
  times the scale row plus the shift row — then the maximum with 0, and for the second head the logistic function.
  The body's chain of operations is named here piece by piece (the stored values are these names by unfolding), and
  each piece is read at an entry: the result is the specification's formula.
-/
import proofs.«129031_j29016799052365_1_alg».proof.Proof.Gen.KernelIdeal.Skeleton
import proofs.«129031_j29016799052365_1_alg».proof.Proof.Spec
import proofs.«129031_j29016799052365_1_alg».proof.Proof.LibPlainDot
import proofs.«129031_j29016799052365_1_alg».proof.Proof.LibSublaneSum
import Idealize.ShloMosaic.Lib.ValueLayout
import Idealize.ShloMosaic.Lib.Pipeline.Value

noncomputable section

namespace Cert.GraphEnc.HeadsBlock

open Idealize.ShloMosaic Idealize.ShloMosaic.ValueIdx Cert.KernelIdeal Cert.KernelIdeal.Gen Cert.GraphEnc

/-- A 64-vector laid out as a row and spread down the 4096 rows. -/
def rowOf (v : FVec Ideal S64 .f32) : FVec Ideal S4096x64 .f32 :=
  broadcastTo S4096x64 (shapeCast S1x64 v shapeCasts_S64_S1x64) broadcasts_S1x64_S4096x64

theorem rowOf_apply (v : FVec Ideal S64 .f32) (i : Fin 4096) (j : Fin 64) : rowOf v (ix2 i j) = v (ix1 j) :=
  (broadcastTo_1b_ab_apply _ broadcasts_S1x64_S4096x64 i j).trans (shapeCast_a_1a_apply v shapeCasts_S64_S1x64 0 j)

/-- The affine map as the body computes it. -/
def kLin (x0 : FVec Ideal S4096x129 .f32) (x1 : FVec Ideal S129x64 .f32) (x2 : FVec Ideal S64 .f32) : FVec Ideal S4096x64 .f32 :=
  addf (matmul dot_S4096x129_S129x64_S4096x64_1_0_0_1_n_n (some .fp32) (k1_pay2 x0) x1 (constant S4096x64 .f32 0x00000000#32))
    (rowOf x2)

theorem kLin_apply (x0 : FVec Ideal S4096x129 .f32) (x1 : FVec Ideal S129x64 .f32) (x2 : FVec Ideal S64 .f32)
    (i : Fin 4096) (j : Fin 64) : kLin x0 x1 x2 (ix2 i j) = lin x0 x1 x2 i j := by
  unfold kLin lin k1_pay2
  rw [addf_apply, rowOf_apply, shapeCast_self]
  exact congrArg (· + x2 (ix1 j)) (Cert.LibPlainDot.matmul_zero_apply 4096 129 64 (some .fp32) x0 x1 (ix2 i j))

/-- The column means as the body computes them: a [1, 64] row. -/
def kMean (a : FVec Ideal S4096x64 .f32) : FVec Ideal S1x64 .f32 :=
  divf (shapeCast S1x64 (multiReduction .add [0] S64 a 0x00000000#32 reduces_S4096x64_S64 (.inl rfl) rfl) shapeCasts_S64_S1x64)
    (broadcast S1x64 (Scalar.ofBits .f32 0x45800000#32))

theorem kMean_apply (a : FVec Ideal S4096x64 .f32) (u : Fin 1) (j : Fin 64) :
    kMean a (ix2 u j) = colMean (fun i j => a (ix2 i j)) j := by
  unfold kMean colMean
  rw [divf_apply, shapeCast_a_1a_apply]
  exact congrArg (fun s => Ideal.div s nGraphs) (Cert.SublaneSum.sublaneSum_apply a reduces_S4096x64_S64 (.inl rfl) rfl j)

/-- The deviations from the column means. -/
def kCentered (a : FVec Ideal S4096x64 .f32) : FVec Ideal S4096x64 .f32 :=
  subf a (broadcastTo S4096x64 (kMean a) broadcasts_S1x64_S4096x64)

theorem kCentered_apply (a : FVec Ideal S4096x64 .f32) (i : Fin 4096) (j : Fin 64) :
    kCentered a (ix2 i j) = a (ix2 i j) - colMean (fun i j => a (ix2 i j)) j := by
  unfold kCentered
  rw [subf_apply, broadcastTo_1b_ab_apply, kMean_apply]

/-- Batch normalisation and relu as the body computes them. -/
def kBn (a : FVec Ideal S4096x64 .f32) (g bt : FVec Ideal S64 .f32) : FVec Ideal S4096x64 .f32 :=
  maximumf
    (addf
      (mulf
        (mulf (kCentered a)
          (broadcastTo S4096x64
            (rsqrt (addf (kMean (mulf (kCentered a) (kCentered a))) (broadcast S1x64 (Scalar.ofBits .f32 0x3727C5AC#32))))
            broadcasts_S1x64_S4096x64))
        (rowOf g))
      (rowOf bt))
    (broadcast S4096x64 (Scalar.ofBits .f32 0x00000000#32))

theorem kBn_apply (a : FVec Ideal S4096x64 .f32) (g bt : FVec Ideal S64 .f32) (i : Fin 4096) (j : Fin 64) :
    kBn a g bt (ix2 i j) = bnRelu (fun i j => a (ix2 i j)) g bt i j := by
  unfold kBn bnRelu colVar
  rw [maximumf_apply, addf_apply, mulf_apply, mulf_apply, kCentered_apply, rowOf_apply, rowOf_apply,
    broadcastTo_1b_ab_apply]
  show max (((a (ix2 i j) - colMean (fun i j => a (ix2 i j)) j)
      * Ideal.rsqrt (kMean (mulf (kCentered a) (kCentered a)) (ix2 (0 : Fin 1) j) + bnEps)) * g (ix1 j) + bt (ix1 j)) zeroF = _
  rw [kMean_apply]
  unfold colMean
  simp only [mulf_apply, kCentered_apply]
  rfl

/-- The first head's stored value is that chain on the affine map. -/
theorem pay3_eq (x0 : FVec Ideal S4096x129 .f32) (x1 : FVec Ideal S129x64 .f32) (x2 x3 x4 : FVec Ideal S64 .f32) :
    k1_pay3 (F := Ideal) x0 x1 x2 x3 x4 = kBn (kLin x0 x1 x2) x3 x4 := rfl

/-- The second head's is the logistic function of the same chain on its own affine map. -/
theorem pay1_eq (x0 : FVec Ideal S4096x129 .f32) (x5 : FVec Ideal S129x64 .f32) (x6 x7 x8 : FVec Ideal S64 .f32) :
    k1_pay1 (F := Ideal) (k1_pay4 x0 x5) (k1_pay5 x6) x7 x8 = logistic (kBn (kLin x0 x5 x6) x7 x8) := rfl

theorem lin_table (x0 : FVec Ideal S4096x129 .f32) (x1 : FVec Ideal S129x64 .f32) (x2 : FVec Ideal S64 .f32) :
    (fun i j => kLin x0 x1 x2 (ix2 i j)) = lin x0 x1 x2 :=
  funext fun i => funext fun j => kLin_apply x0 x1 x2 i j

/-- The first head's stored value at (i, j). -/
theorem mu_apply (x0 : FVec Ideal S4096x129 .f32) (x1 : FVec Ideal S129x64 .f32) (x2 x3 x4 : FVec Ideal S64 .f32)
    (i : Fin 4096) (j : Fin 64) :
    k1_pay3 (F := Ideal) x0 x1 x2 x3 x4 (ix2 i j) = bnRelu (lin x0 x1 x2) x3 x4 i j := by
  rw [pay3_eq, kBn_apply, lin_table]

/-- The second head's stored value at (i, j). -/
theorem logvar_apply (x0 : FVec Ideal S4096x129 .f32) (x5 : FVec Ideal S129x64 .f32) (x6 x7 x8 : FVec Ideal S64 .f32)
    (i : Fin 4096) (j : Fin 64) :
    k1_pay1 (F := Ideal) (k1_pay4 x0 x5) (k1_pay5 x6) x7 x8 (ix2 i j)
      = Ideal.logistic (bnRelu (lin x0 x5 x6) x7 x8 i j) := by
  rw [pay1_eq]
  show Ideal.logistic (kBn (kLin x0 x5 x6) x7 x8 (ix2 i j)) = _
  rw [kBn_apply, lin_table]

end Cert.GraphEnc.HeadsBlock

end
-- ==== Proof.HeadsArray.lean ====
/-
  The heads kernel's two output arrays.

  The kernel runs at a single grid point and every window's block is its whole array, so each staged block is the
  array the region found and each output array is what the body stored: the mean head and the log-variance head of
  the specification, of the pooled features and the two heads' parameters as the region found them — for any contents
  `V` of the TensorCore's buffers at the region's entry.
-/
import proofs.«129031_j29016799052365_1_alg».proof.Proof.Gen.KernelIdeal.Frame
import proofs.«129031_j29016799052365_1_alg».proof.Proof.HeadsBlock
import Idealize.ShloMosaic.Lib.Pipeline.Value

set_option maxRecDepth 16384

noncomputable section

namespace Cert.GraphEnc.HeadsArray

open Idealize.ShloMosaic Idealize.ShloMosaic.TcCoe Idealize.ShloMosaic.ValueIdx Idealize.SL.Sem
open Cert.KernelIdeal Cert.KernelIdeal.Gen Cert.GraphEnc
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- Every window is at block 0 on every axis at the one grid point. -/
theorem idx_facts : ∀ t : Fin cfg1.N,
    win1_0.index t (0 : Fin 2) = 0
    ∧ win1_0.index t (1 : Fin 2) = 0
    ∧ win1_1.index t (0 : Fin 2) = 0
    ∧ win1_1.index t (1 : Fin 2) = 0
    ∧ win1_2.index t (0 : Fin 1) = 0
    ∧ win1_3.index t (0 : Fin 1) = 0
    ∧ win1_4.index t (0 : Fin 1) = 0
    ∧ win1_5.index t (0 : Fin 2) = 0
    ∧ win1_5.index t (1 : Fin 2) = 0
    ∧ win1_6.index t (0 : Fin 1) = 0
    ∧ win1_7.index t (0 : Fin 1) = 0
    ∧ win1_8.index t (0 : Fin 1) = 0
    ∧ win1_9.index t (0 : Fin 2) = 0
    ∧ win1_9.index t (1 : Fin 2) = 0
    ∧ win1_10.index t (0 : Fin 2) = 0
    ∧ win1_10.index t (1 : Fin 2) = 0 :=
  (by decide +kernel : ∀ t : Fin grid1.N, _)

/-- The mean head of the arrays the region finds. -/
def Gmu (c : Dev nD) : S4096x64.Idx → EReal :=
  zmu (V c main_v30 : S4096x129.Idx → EReal) (V c main_arg8 : S129x64.Idx → EReal) (V c main_arg9 : S64.Idx → EReal)
    (V c main_arg10 : S64.Idx → EReal) (V c main_arg11 : S64.Idx → EReal)

/-- The log-variance head of the arrays the region finds. -/
def Glv (c : Dev nD) : S4096x64.Idx → EReal :=
  zlogvar (V c main_v30 : S4096x129.Idx → EReal) (V c main_arg12 : S129x64.Idx → EReal) (V c main_arg13 : S64.Idx → EReal)
    (V c main_arg14 : S64.Idx → EReal) (V c main_arg15 : S64.Idx → EReal)

/-- Window 0's one block is its whole array. -/
theorem read0 (c : Dev nD) (t : Fin cfg1.N) :
    (iblk1 V c 0 t : S4096x129.Idx → EReal) = (V c main_v30 : S4096x129.Idx → EReal) := by
  obtain ⟨e0_0, e0_1, -, -, -, -, -, -, -, -, -, -, -, -, -, -⟩ := idx_facts t
  funext y
  show (V c main_v30 : S4096x129.Idx → EReal) (((cfg1.win 0).blk t).view.emb y) = _
  refine congrArg (V c main_v30 : S4096x129.Idx → EReal) ?_
  funext a; apply Fin.ext
  match a with
  | ⟨0, _⟩ => show win1_0.index t (0 : Fin 2) * 4096 + 1 * (y 0).val = (y 0).val; rw [e0_0]; omega
  | ⟨1, _⟩ => show win1_0.index t (1 : Fin 2) * 129 + 1 * (y 1).val = (y 1).val; rw [e0_1]; omega

/-- Window 1's one block is its whole array. -/
theorem read1 (c : Dev nD) (t : Fin cfg1.N) :
    (iblk1 V c 1 t : S129x64.Idx → EReal) = (V c main_arg8 : S129x64.Idx → EReal) := by
  obtain ⟨-, -, e1_0, e1_1, -, -, -, -, -, -, -, -, -, -, -, -⟩ := idx_facts t
  funext y
  show (V c main_arg8 : S129x64.Idx → EReal) (((cfg1.win 1).blk t).view.emb y) = _
  refine congrArg (V c main_arg8 : S129x64.Idx → EReal) ?_
  funext a; apply Fin.ext
  match a with
  | ⟨0, _⟩ => show win1_1.index t (0 : Fin 2) * 129 + 1 * (y 0).val = (y 0).val; rw [e1_0]; omega
  | ⟨1, _⟩ => show win1_1.index t (1 : Fin 2) * 64 + 1 * (y 1).val = (y 1).val; rw [e1_1]; omega

/-- Window 2's one block is its whole array. -/
theorem read2 (c : Dev nD) (t : Fin cfg1.N) :
    (iblk1 V c 2 t : S64.Idx → EReal) = (V c main_arg9 : S64.Idx → EReal) := by
  obtain ⟨-, -, -, -, e2_0, -, -, -, -, -, -, -, -, -, -, -⟩ := idx_facts t
  funext y
  show (V c main_arg9 : S64.Idx → EReal) (((cfg1.win 2).blk t).view.emb y) = _
  refine congrArg (V c main_arg9 : S64.Idx → EReal) ?_
  funext a; apply Fin.ext
  match a with
  | ⟨0, _⟩ => show win1_2.index t (0 : Fin 1) * 64 + 1 * (y 0).val = (y 0).val; rw [e2_0]; omega

/-- Window 3's one block is its whole array. -/
theorem read3 (c : Dev nD) (t : Fin cfg1.N) :
    (iblk1 V c 3 t : S64.Idx → EReal) = (V c main_arg10 : S64.Idx → EReal) := by
  obtain ⟨-, -, -, -, -, e3_0, -, -, -, -, -, -, -, -, -, -⟩ := idx_facts t
  funext y
  show (V c main_arg10 : S64.Idx → EReal) (((cfg1.win 3).blk t).view.emb y) = _
  refine congrArg (V c main_arg10 : S64.Idx → EReal) ?_
  funext a; apply Fin.ext
  match a with
  | ⟨0, _⟩ => show win1_3.index t (0 : Fin 1) * 64 + 1 * (y 0).val = (y 0).val; rw [e3_0]; omega

/-- Window 4's one block is its whole array. -/
theorem read4 (c : Dev nD) (t : Fin cfg1.N) :
    (iblk1 V c 4 t : S64.Idx → EReal) = (V c main_arg11 : S64.Idx → EReal) := by
  obtain ⟨-, -, -, -, -, -, e4_0, -, -, -, -, -, -, -, -, -⟩ := idx_facts t
  funext y
  show (V c main_arg11 : S64.Idx → EReal) (((cfg1.win 4).blk t).view.emb y) = _
  refine congrArg (V c main_arg11 : S64.Idx → EReal) ?_
  funext a; apply Fin.ext
  match a with
  | ⟨0, _⟩ => show win1_4.index t (0 : Fin 1) * 64 + 1 * (y 0).val = (y 0).val; rw [e4_0]; omega

/-- Window 5's one block is its whole array. -/
theorem read5 (c : Dev nD) (t : Fin cfg1.N) :
    (iblk1 V c 5 t : S129x64.Idx → EReal) = (V c main_arg12 : S129x64.Idx → EReal) := by
  obtain ⟨-, -, -, -, -, -, -, e5_0, e5_1, -, -, -, -, -, -, -⟩ := idx_facts t
  funext y
  show (V c main_arg12 : S129x64.Idx → EReal) (((cfg1.win 5).blk t).view.emb y) = _
  refine congrArg (V c main_arg12 : S129x64.Idx → EReal) ?_
  funext a; apply Fin.ext
  match a with
  | ⟨0, _⟩ => show win1_5.index t (0 : Fin 2) * 129 + 1 * (y 0).val = (y 0).val; rw [e5_0]; omega
  | ⟨1, _⟩ => show win1_5.index t (1 : Fin 2) * 64 + 1 * (y 1).val = (y 1).val; rw [e5_1]; omega

/-- Window 6's one block is its whole array. -/
theorem read6 (c : Dev nD) (t : Fin cfg1.N) :
    (iblk1 V c 6 t : S64.Idx → EReal) = (V c main_arg13 : S64.Idx → EReal) := by
  obtain ⟨-, -, -, -, -, -, -, -, -, e6_0, -, -, -, -, -, -⟩ := idx_facts t
  funext y
  show (V c main_arg13 : S64.Idx → EReal) (((cfg1.win 6).blk t).view.emb y) = _
  refine congrArg (V c main_arg13 : S64.Idx → EReal) ?_
  funext a; apply Fin.ext
  match a with
  | ⟨0, _⟩ => show win1_6.index t (0 : Fin 1) * 64 + 1 * (y 0).val = (y 0).val; rw [e6_0]; omega

/-- Window 7's one block is its whole array. -/
theorem read7 (c : Dev nD) (t : Fin cfg1.N) :
    (iblk1 V c 7 t : S64.Idx → EReal) = (V c main_arg14 : S64.Idx → EReal) := by
  obtain ⟨-, -, -, -, -, -, -, -, -, -, e7_0, -, -, -, -, -⟩ := idx_facts t
  funext y
  show (V c main_arg14 : S64.Idx → EReal) (((cfg1.win 7).blk t).view.emb y) = _
  refine congrArg (V c main_arg14 : S64.Idx → EReal) ?_
  funext a; apply Fin.ext
  match a with
  | ⟨0, _⟩ => show win1_7.index t (0 : Fin 1) * 64 + 1 * (y 0).val = (y 0).val; rw [e7_0]; omega

/-- Window 8's one block is its whole array. -/
theorem read8 (c : Dev nD) (t : Fin cfg1.N) :
    (iblk1 V c 8 t : S64.Idx → EReal) = (V c main_arg15 : S64.Idx → EReal) := by
  obtain ⟨-, -, -, -, -, -, -, -, -, -, -, e8_0, -, -, -, -⟩ := idx_facts t
  funext y
  show (V c main_arg15 : S64.Idx → EReal) (((cfg1.win 8).blk t).view.emb y) = _
  refine congrArg (V c main_arg15 : S64.Idx → EReal) ?_
  funext a; apply Fin.ext
  match a with
  | ⟨0, _⟩ => show win1_8.index t (0 : Fin 1) * 64 + 1 * (y 0).val = (y 0).val; rw [e8_0]; omega

/-- The block's entry (i, j) is the array's entry (i, j). -/
theorem emb9 (t : Fin cfg1.N) (i : Fin 4096) (j : Fin 64) :
    ((cfg1.win 9).blk t).view.emb (ix2 i j) = (ix2 i j : S4096x64.Idx) := by
  obtain ⟨-, -, -, -, -, -, -, -, -, -, -, -, e9_0, e9_1, -, -⟩ := idx_facts t
  funext a; apply Fin.ext
  match a with
  | ⟨0, _⟩ => show win1_9.index t (0 : Fin 2) * 4096 + 1 * i.val = i.val; rw [e9_0]; omega
  | ⟨1, _⟩ => show win1_9.index t (1 : Fin 2) * 64 + 1 * j.val = j.val; rw [e9_1]; omega

/-- An index is in the block iff each coordinate is in the block's range on its axis. -/
theorem mem_blk9 (t : Fin cfg1.N) (i : S4096x64.Idx) :
    i ∈ ((cfg1.win 9).blk t).view.set ↔ ∀ a : Fin 2, win1_9.index t a * S4096x64.size a ≤ (i a).val
      ∧ (i a).val < win1_9.index t a * S4096x64.size a + S4096x64.size a := by
  show i ∈ ((View.whole main_v31_0).slice (win1_9.rect t)).set ↔ _
  rw [View.set_slice_whole, Rect.mem_set_unit]
  exact Iff.rfl

/-- The one point's block covers the array. -/
theorem cover9 (i : S4096x64.Idx) :
    ∃ t : Fin cfg1.N, (cfg1.win 9).flush t = true ∧ i ∈ ((cfg1.win 9).blk t).view.set := by
  have hi0 : (i 0).val < 4096 := (i 0).isLt
  have hi1 : (i 1).val < 64 := (i 1).isLt
  obtain ⟨-, -, -, -, -, -, -, -, -, -, -, -, e9_0, e9_1, -, -⟩ := idx_facts t1_0
  refine ⟨t1_0, flush1_9 t1_0, ?_⟩
  rw [mem_blk9]
  intro a
  match a with
  | ⟨0, _⟩ =>
    show win1_9.index t1_0 (0 : Fin 2) * 4096 ≤ (i 0).val ∧ (i 0).val < win1_9.index t1_0 (0 : Fin 2) * 4096 + 4096
    rw [e9_0]; omega
  | ⟨1, _⟩ =>
    show win1_9.index t1_0 (1 : Fin 2) * 64 ≤ (i 1).val ∧ (i 1).val < win1_9.index t1_0 (1 : Fin 2) * 64 + 64
    rw [e9_1]; omega

/-- The block's entry (i, j) is the array's entry (i, j). -/
theorem emb10 (t : Fin cfg1.N) (i : Fin 4096) (j : Fin 64) :
    ((cfg1.win 10).blk t).view.emb (ix2 i j) = (ix2 i j : S4096x64.Idx) := by
  obtain ⟨-, -, -, -, -, -, -, -, -, -, -, -, -, -, e10_0, e10_1⟩ := idx_facts t
  funext a; apply Fin.ext
  match a with
  | ⟨0, _⟩ => show win1_10.index t (0 : Fin 2) * 4096 + 1 * i.val = i.val; rw [e10_0]; omega
  | ⟨1, _⟩ => show win1_10.index t (1 : Fin 2) * 64 + 1 * j.val = j.val; rw [e10_1]; omega

/-- An index is in the block iff each coordinate is in the block's range on its axis. -/
theorem mem_blk10 (t : Fin cfg1.N) (i : S4096x64.Idx) :
    i ∈ ((cfg1.win 10).blk t).view.set ↔ ∀ a : Fin 2, win1_10.index t a * S4096x64.size a ≤ (i a).val
      ∧ (i a).val < win1_10.index t a * S4096x64.size a + S4096x64.size a := by
  show i ∈ ((View.whole main_v31_1).slice (win1_10.rect t)).set ↔ _
  rw [View.set_slice_whole, Rect.mem_set_unit]
  exact Iff.rfl

/-- The one point's block covers the array. -/
theorem cover10 (i : S4096x64.Idx) :
    ∃ t : Fin cfg1.N, (cfg1.win 10).flush t = true ∧ i ∈ ((cfg1.win 10).blk t).view.set := by
  have hi0 : (i 0).val < 4096 := (i 0).isLt
  have hi1 : (i 1).val < 64 := (i 1).isLt
  obtain ⟨-, -, -, -, -, -, -, -, -, -, -, -, -, -, e10_0, e10_1⟩ := idx_facts t1_0
  refine ⟨t1_0, flush1_10 t1_0, ?_⟩
  rw [mem_blk10]
  intro a
  match a with
  | ⟨0, _⟩ =>
    show win1_10.index t1_0 (0 : Fin 2) * 4096 ≤ (i 0).val ∧ (i 0).val < win1_10.index t1_0 (0 : Fin 2) * 4096 + 4096
    rw [e10_0]; omega
  | ⟨1, _⟩ =>
    show win1_10.index t1_0 (1 : Fin 2) * 64 ≤ (i 1).val ∧ (i 1).val < win1_10.index t1_0 (1 : Fin 2) * 64 + 64
    rw [e10_1]; omega

/-- What the point writes back to the first output is the mean head. -/
theorem flushed_mu (c : Dev nD) (t : Fin cfg1.N) :
    (dat1 V c).flushed 9 t = ((cfg1.win 9).blk t).view.read (Elt Ideal) (Gmu V c) := by
  show (cfg1.win 9).cut (grid1.coords t) ((dat1 V c).after 9 t) = _
  rw [after1_9]
  unfold out1_9
  rw [View.canon_unit_zero hz2]
  simp only [View.ld_unit_zero (S := S4096x129) hz2, View.ld_unit_zero (S := S129x64) hz2, View.ld_unit_zero (S := S64) hz1]
  rw [read0 V c t, read1 V c t, read2 V c t, read3 V c t, read4 V c t]
  funext y
  obtain ⟨i, j, rfl⟩ : ∃ (i : Fin 4096) (j : Fin 64), y = ix2 i j := ⟨y 0, y 1, eq_ix2 y⟩
  refine (HeadsBlock.mu_apply _ _ _ _ _ i j).trans ?_
  show _ = Gmu V c (((cfg1.win 9).blk t).view.emb (ix2 i j))
  rw [emb9 t i j]
  rfl

/-- What the point writes back to the second output is the log-variance head. -/
theorem flushed_lv (c : Dev nD) (t : Fin cfg1.N) :
    (dat1 V c).flushed 10 t = ((cfg1.win 10).blk t).view.read (Elt Ideal) (Glv V c) := by
  show (cfg1.win 10).cut (grid1.coords t) ((dat1 V c).after 10 t) = _
  rw [after1_10]
  unfold out1_10
  rw [View.canon_unit_zero hz2]
  simp only [View.ld_unit_zero (S := S4096x129) hz2, View.ld_unit_zero (S := S129x64) hz2, View.ld_unit_zero (S := S64) hz1]
  rw [read0 V c t, read5 V c t, read6 V c t, read7 V c t, read8 V c t]
  funext y
  obtain ⟨i, j, rfl⟩ : ∃ (i : Fin 4096) (j : Fin 64), y = ix2 i j := ⟨y 0, y 1, eq_ix2 y⟩
  refine (HeadsBlock.logvar_apply _ _ _ _ _ i j).trans ?_
  show _ = Glv V c (((cfg1.win 10).blk t).view.emb (ix2 i j))
  rw [emb10 t i j]
  rfl

/-- The first output array after the region. -/
theorem final_mu (c : Dev nD) : (dat1 V c).arrAt 9 cfg1.N = Gmu V c :=
  (dat1 V c).arrAt_eq_of_cover 9 (Gmu V c) (fun t _ => flushed_mu V c t) cover9

/-- The second output array after the region. -/
theorem final_lv (c : Dev nD) : (dat1 V c).arrAt 10 cfg1.N = Glv V c :=
  (dat1 V c).arrAt_eq_of_cover 10 (Glv V c) (fun t _ => flushed_lv V c t) cover10

end Cert.GraphEnc.HeadsArray

end
-- ==== Proof.RefOps.lean ====
/-
  The reference's host operations, named and read at an entry.

  The reference computes the node embedding with two host matrix products, the bias added through two broadcasts and a
  maximum with a broadcast 0; each head with a host matrix product, the bias row, and batch normalisation spelt with
  host sums over the 4096 graphs, host quotients by a broadcast 4096, a host rsqrt and broadcasts of [1, 64] rows; the
  second head ends in 1 / (1 + exp(−z)), which is the logistic function. Each piece is named here as the reference
  spells it (the staged values are these names by unfolding) and read at an entry: the results are the
  specification's formulas. The operations between the embedding and the heads — the scatter-mean pool and the
  concatenation with y — are carried as one function `pooled` and never opened; the message-passing chain before the
  embedding is the reference's own stage `val_main_v16`, likewise never opened.
-/
import proofs.«129031_j29016799052365_1_alg».proof.Proof.Gen.ReferenceIdeal.Read
import proofs.«129031_j29016799052365_1_alg».proof.Proof.Spec
import proofs.«129031_j29016799052365_1_alg».proof.Proof.LibPlainDot
import Idealize.ShloMosaic.Lib.IdealHost
import Idealize.ShloMosaic.Lib.Pipeline.Value

noncomputable section

namespace Cert.GraphEnc.RefOps

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx
open Cert.GraphEnc

/-! ## Layout pieces -/

/-- A 64-vector laid out as a [1, 64] row reads, at (u, j), its entry j. -/
theorem vecRow_apply (v : FVec Ideal S64 .f32) (u : Fin 1) (j : Fin 64) :
    broadcastInDim S1x64 ![1] bcast_S64_S1x64_1 v (ix2 u j) = v (ix1 j) :=
  broadcastInDim_apply _ bcast_S64_S1x64_1 v (ix2 u j) (ix1 j) (fun a => match a with
    | ⟨0, _⟩ => by show j.val = if (64 : Nat) = 1 then 0 else j.val; rw [if_neg (by decide)])

/-- A [1, 64] row spread down the 4096 rows reads, at (i, j), the row's entry j. -/
theorem spread_apply {α : Type} (w : S1x64.Idx → α) (i : Fin 4096) (j : Fin 64) :
    broadcastInDim S4096x64 ![0, 1] bcast_S1x64_S4096x64_0_1 w (ix2 i j) = w (ix2 (0 : Fin 1) j) :=
  broadcastInDim_apply _ bcast_S1x64_S4096x64_0_1 w (ix2 i j) (ix2 (0 : Fin 1) j) (fun a => match a with
    | ⟨0, _⟩ => by show 0 = if (1 : Nat) = 1 then 0 else i.val; rw [if_pos rfl]
    | ⟨1, _⟩ => by show j.val = if (64 : Nat) = 1 then 0 else j.val; rw [if_neg (by decide)])

/-- A 64-vector as a row spread down the 4096 rows. -/
def rowOf (v : FVec Ideal S64 .f32) : FVec Ideal S4096x64 .f32 :=
  broadcastInDim S4096x64 ![0, 1] bcast_S1x64_S4096x64_0_1 (broadcastInDim S1x64 ![1] bcast_S64_S1x64_1 v)

theorem rowOf_apply (v : FVec Ideal S64 .f32) (i : Fin 4096) (j : Fin 64) : rowOf v (ix2 i j) = v (ix1 j) :=
  (spread_apply _ i j).trans (vecRow_apply v 0 j)

/-- A host sum over the 4096 rows from the zero pattern, at column j. -/
theorem colSum_apply (a : FVec Ideal S4096x64 .f32) (j : Fin 64) :
    Host.reduceAdd (F := Ideal) a (constant (F := Ideal) S_ .f32 0x00000000#32) reducesTo_S4096x64_S64_d0 h_S_ (ix1 j)
      = ∑ i : Fin 4096, a (ix2 i j) := by
  rw [hostReduceAdd_apply, Ideal.hostReduceAdd_single reducesTo_S4096x64_S64_d0 (by decide)]
  show Ideal.ofBits .f32 0x00000000#32 + _ = _
  rw [Ideal.ofBits_zero_f32, zero_add]
  exact Finset.sum_congr rfl fun k _ => congrArg a (funext fun d => Fin.ext (by
    match d with
    | ⟨0, _⟩ => rfl
    | ⟨1, _⟩ => rfl))

/-! ## A head: affine map, batch normalisation, relu -/

/-- The affine map as the reference computes it. -/
def rLin (h : FVec Ideal S4096x129 .f32) (W : FVec Ideal S129x64 .f32) (b : FVec Ideal S64 .f32) : FVec Ideal S4096x64 .f32 :=
  addf (Host.dotGeneral dot_S4096x129_S129x64_S4096x64_1_0_0_1_n_n none h W) (rowOf b)

theorem rLin_apply (h : FVec Ideal S4096x129 .f32) (W : FVec Ideal S129x64 .f32) (b : FVec Ideal S64 .f32)
    (i : Fin 4096) (j : Fin 64) : rLin h W b (ix2 i j) = lin h W b i j := by
  unfold rLin lin
  rw [addf_apply, rowOf_apply]
  exact congrArg (· + b (ix1 j)) (Cert.LibPlainDot.dotGeneral_apply 4096 129 64 none .single h W (ix2 i j))

theorem lin_table (h : FVec Ideal S4096x129 .f32) (W : FVec Ideal S129x64 .f32) (b : FVec Ideal S64 .f32) :
    (fun i j => rLin h W b (ix2 i j)) = lin h W b :=
  funext fun i => funext fun j => rLin_apply h W b i j

/-- The column means as the reference computes them: a [1, 64] row. -/
def rMean (a : FVec Ideal S4096x64 .f32) : FVec Ideal S1x64 .f32 :=
  Host.divf (F := Ideal)
    (broadcastInDim S1x64 ![1] bcast_S64_S1x64_1
      (Host.reduceAdd (F := Ideal) a (constant (F := Ideal) S_ .f32 0x00000000#32) reducesTo_S4096x64_S64_d0 h_S_))
    (broadcastInDim S1x64 ![] bcast_S_S1x64 (constant (F := Ideal) S_ .f32 0x45800000#32))

theorem rMean_apply (a : FVec Ideal S4096x64 .f32) (u : Fin 1) (j : Fin 64) :
    rMean a (ix2 u j) = colMean (fun i j => a (ix2 i j)) j := by
  unfold rMean colMean
  rw [hostDivf_apply, vecRow_apply, colSum_apply]
  rfl

/-- The deviations from the column means. -/
def rCentered (a : FVec Ideal S4096x64 .f32) : FVec Ideal S4096x64 .f32 :=
  subf a (broadcastInDim S4096x64 ![0, 1] bcast_S1x64_S4096x64_0_1 (rMean a))

theorem rCentered_apply (a : FVec Ideal S4096x64 .f32) (i : Fin 4096) (j : Fin 64) :
    rCentered a (ix2 i j) = a (ix2 i j) - colMean (fun i j => a (ix2 i j)) j := by
  unfold rCentered
  rw [subf_apply, spread_apply, rMean_apply]

/-- Batch normalisation and relu as the reference computes them. -/
def rBn (a : FVec Ideal S4096x64 .f32) (g bt : FVec Ideal S64 .f32) : FVec Ideal S4096x64 .f32 :=
  maximumf
    (addf
      (mulf
        (mulf (rCentered a)
          (broadcastInDim S4096x64 ![0, 1] bcast_S1x64_S4096x64_0_1
            (Host.rsqrt (F := Ideal)
              (addf (rMean (mulf (rCentered a) (rCentered a)))
                (broadcastInDim S1x64 ![] bcast_S_S1x64 (constant (F := Ideal) S_ .f32 0x3727C5AC#32))))))
        (rowOf g))
      (rowOf bt))
    (broadcastInDim S4096x64 ![] bcast_S_S4096x64 (constant (F := Ideal) S_ .f32 0x00000000#32))

theorem rBn_apply (a : FVec Ideal S4096x64 .f32) (g bt : FVec Ideal S64 .f32) (i : Fin 4096) (j : Fin 64) :
    rBn a g bt (ix2 i j) = bnRelu (fun i j => a (ix2 i j)) g bt i j := by
  unfold rBn bnRelu colVar
  rw [maximumf_apply, addf_apply, mulf_apply, mulf_apply, rCentered_apply, rowOf_apply, rowOf_apply, spread_apply]
  show max (((a (ix2 i j) - colMean (fun i j => a (ix2 i j)) j)
      * Ideal.rsqrt (rMean (mulf (rCentered a) (rCentered a)) (ix2 (0 : Fin 1) j) + bnEps)) * g (ix1 j) + bt (ix1 j)) zeroF = _
  rw [rMean_apply]
  unfold colMean
  simp only [mulf_apply, rCentered_apply]
  rfl

/-- 1 / (1 + exp(−z)) as the reference spells it. -/
def rLogistic (z : FVec Ideal S4096x64 .f32) : FVec Ideal S4096x64 .f32 :=
  Host.divf (F := Ideal) (broadcastInDim S4096x64 ![] bcast_S_S4096x64 (constant (F := Ideal) S_ .f32 0x3F800000#32))
    (addf (broadcastInDim S4096x64 ![] bcast_S_S4096x64 (constant (F := Ideal) S_ .f32 0x3F800000#32))
      (Host.exp (F := Ideal) (Host.negf (F := Ideal) z)))

/-- It is the logistic function: the pattern of 1.0 is the real 1. -/
theorem rLogistic_apply (z : FVec Ideal S4096x64 .f32) (i : S4096x64.Idx) : rLogistic z i = Ideal.logistic (z i) := by
  show Ideal.div (Ideal.ofBits .f32 0x3F800000#32) (Ideal.ofBits .f32 0x3F800000#32 + Ideal.exp (-(z i)))
    = Ideal.div 1 (1 + Ideal.exp (-(z i)))
  rw [Ideal.ofBits_one_f32]

/-! ## The node embedding -/

/-- A 128-vector as a row spread down the 500000 rows reads, at (p, q), its entry q. -/
theorem biasRow_apply (b : FVec Ideal S128 .f32) (p : Fin 500000) (q : Fin 128) :
    broadcastInDim S500000x128 ![0, 1] bcast_S1x128_S500000x128_0_1 (broadcastInDim S1x128 ![1] bcast_S128_S1x128_1 b) (ix2 p q)
      = b (ix1 q) :=
  (broadcastInDim_apply _ bcast_S1x128_S500000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans
  (broadcastInDim_apply _ bcast_S128_S1x128_1 b (ix2 (0 : Fin 1) q) (ix1 q) (fun a => match a with
    | ⟨0, _⟩ => by show q.val = if (128 : Nat) = 1 then 0 else q.val; rw [if_neg (by decide)]))

/-- The node embedding as the reference computes it. -/
def rEmbed (x msg : FVec Ideal S500000x128 .f32) (ws wn : FVec Ideal S128x128 .f32) (b : FVec Ideal S128 .f32) :
    FVec Ideal S500000x128 .f32 :=
  maximumf
    (addf
      (addf (Host.dotGeneral dot_S500000x128_S128x128_S500000x128_1_0_0_1_n_n none x ws)
        (Host.dotGeneral dot_S500000x128_S128x128_S500000x128_1_0_0_1_n_n none msg wn))
      (broadcastInDim S500000x128 ![0, 1] bcast_S1x128_S500000x128_0_1 (broadcastInDim S1x128 ![1] bcast_S128_S1x128_1 b)))
    (broadcastInDim S500000x128 ![] bcast_S_S500000x128 (constant (F := Ideal) S_ .f32 0x00000000#32))

theorem rEmbed_eq (x msg : FVec Ideal S500000x128 .f32) (ws wn : FVec Ideal S128x128 .f32) (b : FVec Ideal S128 .f32) :
    rEmbed x msg ws wn b = embed x msg ws wn b := by
  funext y
  obtain ⟨p, q, rfl⟩ : ∃ (p : Fin 500000) (q : Fin 128), y = ix2 p q := ⟨y 0, y 1, eq_ix2 y⟩
  unfold rEmbed embed embedAt
  rw [maximumf_apply, addf_apply, addf_apply, biasRow_apply]
  show max (((Host.dotGeneral dot_S500000x128_S128x128_S500000x128_1_0_0_1_n_n none x ws) (ix2 p q)
      + (Host.dotGeneral dot_S500000x128_S128x128_S500000x128_1_0_0_1_n_n none msg wn) (ix2 p q)) + b (ix1 q)) zeroF = _
  rw [show (Host.dotGeneral dot_S500000x128_S128x128_S500000x128_1_0_0_1_n_n none x ws) (ix2 p q)
        = ∑ k : Fin 128, x (ix2 p k) * ws (ix2 k q) from Cert.LibPlainDot.dotGeneral_apply 500000 128 128 none .single x ws (ix2 p q),
      show (Host.dotGeneral dot_S500000x128_S128x128_S500000x128_1_0_0_1_n_n none msg wn) (ix2 p q)
        = ∑ k : Fin 128, msg (ix2 p k) * wn (ix2 k q) from Cert.LibPlainDot.dotGeneral_apply 500000 128 128 none .single msg wn (ix2 p q)]

/-! ## The shared chain between the embedding and the heads -/

/-- The scatter-mean pool of the node embedding `e` over the graph ids `x4`, with `x3` appended as a last column: the
    reference's operations between the embedding and the heads, as one function of `e`. -/
def pooled (e : FVec Ideal S500000x128 .f32) (x4 : IVec S500000 32) (x3 : FVec Ideal S4096x1 .f32) :
    FVec Ideal S4096x129 .f32 :=
  concatenate S4096x129 1
    [⟨S4096x128, Host.divf (F := Ideal)
        (Host.scatterAdd (F := Ideal) scatter_S4096x128_S500000x1_S500000x128_1_0_0_1 (val_main_v24 (F := Ideal)) (val_main_v25 (F := Ideal) x4) e)
        (val_main_v34 (F := Ideal) x4)⟩,
     ⟨S4096x1, x3⟩] concatenates_S4096x128_S4096x1_S4096x129_d1

/-! ## The reference's stages are these names -/

theorem v23_eq (x0 : (⟨S500000x128, .f32⟩ : BufTy).Contents (Elt Ideal)) (x1 : (⟨S2x600000, .i32⟩ : BufTy).Contents (Elt Ideal)) (x2 : (⟨S600000, .f32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) :
    val_main_v23 (F := Ideal) x0 x1 x2 x5 x6 x7 = rEmbed x0 (val_main_v16 (F := Ideal) x0 x1 x2) x5 x6 x7 := rfl

theorem v36_eq (x0 : (⟨S500000x128, .f32⟩ : BufTy).Contents (Elt Ideal)) (x1 : (⟨S2x600000, .i32⟩ : BufTy).Contents (Elt Ideal)) (x2 : (⟨S600000, .f32⟩ : BufTy).Contents (Elt Ideal)) (x3 : (⟨S4096x1, .f32⟩ : BufTy).Contents (Elt Ideal)) (x4 : (⟨S500000, .i32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) :
    val_main_v36 (F := Ideal) x0 x1 x2 x3 x4 x5 x6 x7 = pooled (val_main_v23 (F := Ideal) x0 x1 x2 x5 x6 x7) x4 x3 := rfl

theorem v65_eq (x0 : (⟨S500000x128, .f32⟩ : BufTy).Contents (Elt Ideal)) (x1 : (⟨S2x600000, .i32⟩ : BufTy).Contents (Elt Ideal)) (x2 : (⟨S600000, .f32⟩ : BufTy).Contents (Elt Ideal)) (x3 : (⟨S4096x1, .f32⟩ : BufTy).Contents (Elt Ideal)) (x4 : (⟨S500000, .i32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) (x8 : (⟨S129x64, .f32⟩ : BufTy).Contents (Elt Ideal)) (x9 : (⟨S64, .f32⟩ : BufTy).Contents (Elt Ideal)) (x10 : (⟨S64, .f32⟩ : BufTy).Contents (Elt Ideal)) (x11 : (⟨S64, .f32⟩ : BufTy).Contents (Elt Ideal)) :
    val_main_v65 (F := Ideal) x0 x1 x2 x3 x4 x5 x6 x7 x8 x9 x10 x11
      = rBn (rLin (val_main_v36 (F := Ideal) x0 x1 x2 x3 x4 x5 x6 x7) x8 x9) x10 x11 := rfl

theorem v100_eq (x0 : (⟨S500000x128, .f32⟩ : BufTy).Contents (Elt Ideal)) (x1 : (⟨S2x600000, .i32⟩ : BufTy).Contents (Elt Ideal)) (x2 : (⟨S600000, .f32⟩ : BufTy).Contents (Elt Ideal)) (x3 : (⟨S4096x1, .f32⟩ : BufTy).Contents (Elt Ideal)) (x4 : (⟨S500000, .i32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) (x12 : (⟨S129x64, .f32⟩ : BufTy).Contents (Elt Ideal)) (x13 : (⟨S64, .f32⟩ : BufTy).Contents (Elt Ideal)) (x14 : (⟨S64, .f32⟩ : BufTy).Contents (Elt Ideal)) (x15 : (⟨S64, .f32⟩ : BufTy).Contents (Elt Ideal)) :
    val_main_v100 (F := Ideal) x0 x1 x2 x3 x4 x5 x6 x7 x12 x13 x14 x15
      = rLogistic (rBn (rLin (val_main_v36 (F := Ideal) x0 x1 x2 x3 x4 x5 x6 x7) x12 x13) x14 x15) := rfl

/-! ## The reference's two results against the specification -/

/-- The pooled features the heads read, as the shared chain of the specification's node embedding. -/
theorem h_eq (x0 : (⟨S500000x128, .f32⟩ : BufTy).Contents (Elt Ideal)) (x1 : (⟨S2x600000, .i32⟩ : BufTy).Contents (Elt Ideal)) (x2 : (⟨S600000, .f32⟩ : BufTy).Contents (Elt Ideal)) (x3 : (⟨S4096x1, .f32⟩ : BufTy).Contents (Elt Ideal)) (x4 : (⟨S500000, .i32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) :
    val_main_v36 (F := Ideal) x0 x1 x2 x3 x4 x5 x6 x7
      = pooled (embed x0 (val_main_v16 (F := Ideal) x0 x1 x2) x5 x6 x7) x4 x3 := by
  rw [v36_eq, v23_eq, rEmbed_eq]

/-- The encoder's first result as a function of the arguments it reads: the mean head of the pooled node embedding. -/
def resMu (x0 : (⟨S500000x128, .f32⟩ : BufTy).Contents (Elt Ideal)) (x1 : (⟨S2x600000, .i32⟩ : BufTy).Contents (Elt Ideal)) (x2 : (⟨S600000, .f32⟩ : BufTy).Contents (Elt Ideal)) (x3 : (⟨S4096x1, .f32⟩ : BufTy).Contents (Elt Ideal)) (x4 : (⟨S500000, .i32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) (x8 : (⟨S129x64, .f32⟩ : BufTy).Contents (Elt Ideal)) (x9 : (⟨S64, .f32⟩ : BufTy).Contents (Elt Ideal)) (x10 : (⟨S64, .f32⟩ : BufTy).Contents (Elt Ideal)) (x11 : (⟨S64, .f32⟩ : BufTy).Contents (Elt Ideal)) : FVec Ideal S4096x64 .f32 :=
  zmu (pooled (embed x0 (val_main_v16 (F := Ideal) x0 x1 x2) x5 x6 x7) x4 x3) x8 x9 x10 x11

/-- The encoder's second result: the log-variance head of the same pooled node embedding. -/
def resLv (x0 : (⟨S500000x128, .f32⟩ : BufTy).Contents (Elt Ideal)) (x1 : (⟨S2x600000, .i32⟩ : BufTy).Contents (Elt Ideal)) (x2 : (⟨S600000, .f32⟩ : BufTy).Contents (Elt Ideal)) (x3 : (⟨S4096x1, .f32⟩ : BufTy).Contents (Elt Ideal)) (x4 : (⟨S500000, .i32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) (x12 : (⟨S129x64, .f32⟩ : BufTy).Contents (Elt Ideal)) (x13 : (⟨S64, .f32⟩ : BufTy).Contents (Elt Ideal)) (x14 : (⟨S64, .f32⟩ : BufTy).Contents (Elt Ideal)) (x15 : (⟨S64, .f32⟩ : BufTy).Contents (Elt Ideal)) : FVec Ideal S4096x64 .f32 :=
  zlogvar (pooled (embed x0 (val_main_v16 (F := Ideal) x0 x1 x2) x5 x6 x7) x4 x3) x12 x13 x14 x15

/-- The reference's first result is the mean head of those pooled features. -/
theorem out0 (x0 : (⟨S500000x128, .f32⟩ : BufTy).Contents (Elt Ideal)) (x1 : (⟨S2x600000, .i32⟩ : BufTy).Contents (Elt Ideal)) (x2 : (⟨S600000, .f32⟩ : BufTy).Contents (Elt Ideal)) (x3 : (⟨S4096x1, .f32⟩ : BufTy).Contents (Elt Ideal)) (x4 : (⟨S500000, .i32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) (x8 : (⟨S129x64, .f32⟩ : BufTy).Contents (Elt Ideal)) (x9 : (⟨S64, .f32⟩ : BufTy).Contents (Elt Ideal)) (x10 : (⟨S64, .f32⟩ : BufTy).Contents (Elt Ideal)) (x11 : (⟨S64, .f32⟩ : BufTy).Contents (Elt Ideal)) :
    val_main_v65 (F := Ideal) x0 x1 x2 x3 x4 x5 x6 x7 x8 x9 x10 x11 = resMu x0 x1 x2 x3 x4 x5 x6 x7 x8 x9 x10 x11 := by
  unfold resMu
  rw [v65_eq, h_eq]
  generalize pooled (embed x0 (val_main_v16 (F := Ideal) x0 x1 x2) x5 x6 x7) x4 x3 = h
  funext y
  obtain ⟨i, j, rfl⟩ : ∃ (i : Fin 4096) (j : Fin 64), y = ix2 i j := ⟨y 0, y 1, eq_ix2 y⟩
  rw [rBn_apply, lin_table]
  rfl

/-- The reference's second result is the log-variance head of those pooled features. -/
theorem out1 (x0 : (⟨S500000x128, .f32⟩ : BufTy).Contents (Elt Ideal)) (x1 : (⟨S2x600000, .i32⟩ : BufTy).Contents (Elt Ideal)) (x2 : (⟨S600000, .f32⟩ : BufTy).Contents (Elt Ideal)) (x3 : (⟨S4096x1, .f32⟩ : BufTy).Contents (Elt Ideal)) (x4 : (⟨S500000, .i32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) (x12 : (⟨S129x64, .f32⟩ : BufTy).Contents (Elt Ideal)) (x13 : (⟨S64, .f32⟩ : BufTy).Contents (Elt Ideal)) (x14 : (⟨S64, .f32⟩ : BufTy).Contents (Elt Ideal)) (x15 : (⟨S64, .f32⟩ : BufTy).Contents (Elt Ideal)) :
    val_main_v100 (F := Ideal) x0 x1 x2 x3 x4 x5 x6 x7 x12 x13 x14 x15 = resLv x0 x1 x2 x3 x4 x5 x6 x7 x12 x13 x14 x15 := by
  unfold resLv
  rw [v100_eq, h_eq]
  generalize pooled (embed x0 (val_main_v16 (F := Ideal) x0 x1 x2) x5 x6 x7) x4 x3 = h
  funext y
  obtain ⟨i, j, rfl⟩ : ∃ (i : Fin 4096) (j : Fin 64), y = ix2 i j := ⟨y 0, y 1, eq_ix2 y⟩
  rw [rLogistic_apply, rBn_apply, lin_table]
  rfl

end Cert.GraphEnc.RefOps

end
-- ==== Proof.KernelRunAll.lean ====
/-
  The idealized kernel program's run, with every buffer named at its end.

  @main is four segments: the message-passing host operations, the embedding region, the pooling host operations, the
  heads region. The contents of the TensorCore's buffers at each boundary are a fold from the launch memory: a host
  stretch applies its operations, a region leaves its arrays at what its write-backs produce and every other buffer as
  it found it. Every weakly fair execution terminates without a fault, and at the end every buffer that is not a
  staging buffer holds the last boundary's contents. The frame claim keeps only the arguments of that statement; the
  value claim reads the two results off it.
-/
import proofs.«129031_j29016799052365_1_alg».proof.Proof.Gen.KernelIdeal.Frame
import Idealize.ShloMosaic.Lib.Pipeline.Regions

noncomputable section

namespace Cert.GraphEnc.KernelRunAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters every weakly fair execution of @main terminates, nothing faulting, and every
    buffer that is not a staging buffer ends at the last boundary's contents. The thread state before the first
    segment is the launch memory's buffers held as they are; after the last, the same set held at the last boundary's
    contents, which is then read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by
        rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b))
          = StableHlo.held (c : Thread nD τ) (Pipeline.ucRefs τ sig) (W0 m ρ c) from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

end Cert.GraphEnc.KernelRunAll

end
-- ==== Proof.KernelValue.lean ====
/-
  The idealized kernel program's two results as functions of its arguments.

  Reading the boundary contents back to the launch memory: at the embedding region's entry the arguments are as
  launched and the messages are the message-passing chain of x, the edge list and the edge weights; at its exit the
  output array is the node embedding of those; at the heads region's entry the pooled features are the pooling chain
  of that embedding, the graph ids and y, and the heads' parameters are as launched; at its exit the two output
  arrays are the two heads of those. The message-passing and pooling chains are the same host operations in both
  programs; they are named by the reference's stages and never opened.
-/
import proofs.«129031_j29016799052365_1_alg».proof.Proof.Gen.KernelIdeal.Frame
import proofs.«129031_j29016799052365_1_alg».proof.Proof.EmbedArray
import proofs.«129031_j29016799052365_1_alg».proof.Proof.HeadsArray
import proofs.«129031_j29016799052365_1_alg».proof.Proof.RefOps
import proofs.«129031_j29016799052365_1_alg».proof.Proof.KernelRunAll
import Idealize.ShloMosaic.Lib.StableHlo.Run

set_option maxRecDepth 16384

noncomputable section

namespace Cert.GraphEnc.KernelValue

open Cert.KernelIdeal Cert.KernelIdeal.Gen
open Idealize.ShloMosaic Idealize.ShloMosaic.TcCoe Idealize.SL.Sem Idealize.ShloMosaic.StableHlo
open Cert.GraphEnc

variable (m : (ℓ : Loc nD τ sig) → Buf (Elt Ideal) ℓ) (ρ : Dev nD → PrngReg)

/-! ## The embedding region's entry -/

/-- Argument 0 reaches the embedding region as launched. -/
theorem entry0_arg0 (c : Dev nD) : (V1 m ρ c main_arg0 : S500000x128.Idx → EReal) = (m ((c : Thread nD τ).loc main_arg0)) := by
  show StableHlo.after hostOps0 (W0 m ρ c) (Proc.devRef .tc main_arg0) = _
  try dsimp only [hostOps0]
  after_results <;> rfl

/-- Argument 5 reaches the embedding region as launched. -/
theorem entry0_arg5 (c : Dev nD) : (V1 m ρ c main_arg5 : S128x128.Idx → EReal) = (m ((c : Thread nD τ).loc main_arg5)) := by
  show StableHlo.after hostOps0 (W0 m ρ c) (Proc.devRef .tc main_arg5) = _
  try dsimp only [hostOps0]
  after_results <;> rfl

/-- Argument 6 reaches the embedding region as launched. -/
theorem entry0_arg6 (c : Dev nD) : (V1 m ρ c main_arg6 : S128x128.Idx → EReal) = (m ((c : Thread nD τ).loc main_arg6)) := by
  show StableHlo.after hostOps0 (W0 m ρ c) (Proc.devRef .tc main_arg6) = _
  try dsimp only [hostOps0]
  after_results <;> rfl

/-- Argument 7 reaches the embedding region as launched. -/
theorem entry0_arg7 (c : Dev nD) : (V1 m ρ c main_arg7 : S128.Idx → EReal) = (m ((c : Thread nD τ).loc main_arg7)) := by
  show StableHlo.after hostOps0 (W0 m ρ c) (Proc.devRef .tc main_arg7) = _
  try dsimp only [hostOps0]
  after_results <;> rfl

/-- The messages the embedding region finds are the message-passing chain of x, the edge list and the edge weights. -/
theorem entry0_msg (c : Dev nD) : (V1 m ρ c main_v16 : S500000x128.Idx → EReal)
    = Cert.ReferenceIdeal.Read.val_main_v16 (F := Ideal) (m ((c : Thread nD τ).loc main_arg0)) (m ((c : Thread nD τ).loc main_arg1)) (m ((c : Thread nD τ).loc main_arg2)) := by
  show StableHlo.after hostOps0 (W0 m ρ c) (Proc.devRef .tc main_v16) = _
  try dsimp only [hostOps0]
  after_results_simp
  open Cert.ReferenceIdeal.Read in
  unfold val_main_v16 val_main_v15 val_main_v14 val_main_v13 val_main_v12 val_main_v11 val_main_v10 val_main_v9 val_main_v8
    val_main_v7 val_main_v6 val_main_v5 val_main_v4 val_main_v3 val_main_v2 val_main_v1 val_main_v0 val_main_cst val_main_c
    val_main_c_0
  rfl

/-! ## The embedding region's exit -/

/-- Its output array is the node embedding. -/
theorem exit0_embed (c : Dev nD) : (W2 m ρ c (Proc.devRef .tc main_v17) : S500000x128.Idx → EReal)
    = embed (m ((c : Thread nD τ).loc main_arg0)) (Cert.ReferenceIdeal.Read.val_main_v16 (F := Ideal) (m ((c : Thread nD τ).loc main_arg0)) (m ((c : Thread nD τ).loc main_arg1)) (m ((c : Thread nD τ).loc main_arg2)))
        (m ((c : Thread nD τ).loc main_arg5)) (m ((c : Thread nD τ).loc main_arg6)) (m ((c : Thread nD τ).loc main_arg7)) := by
  refine (W2_arr m ρ c 5).trans ((EmbedArray.final (V1 m ρ) c).trans ?_)
  unfold EmbedArray.G
  rw [entry0_arg0, entry0_msg, entry0_arg5, entry0_arg6, entry0_arg7]

/-- Argument 3 passes the embedding region as launched. -/
theorem exit0_arg3 (c : Dev nD) : W2 m ρ c (Proc.devRef .tc main_arg3) = (m ((c : Thread nD τ).loc main_arg3)) := by
  refine (W2_of_ne m ρ c main_arg3 (by decide)).trans ?_
  show StableHlo.after hostOps0 (W0 m ρ c) (Proc.devRef .tc main_arg3) = _
  try dsimp only [hostOps0]
  after_results <;> rfl

/-- Argument 4 passes the embedding region as launched. -/
theorem exit0_arg4 (c : Dev nD) : W2 m ρ c (Proc.devRef .tc main_arg4) = (m ((c : Thread nD τ).loc main_arg4)) := by
  refine (W2_of_ne m ρ c main_arg4 (by decide)).trans ?_
  show StableHlo.after hostOps0 (W0 m ρ c) (Proc.devRef .tc main_arg4) = _
  try dsimp only [hostOps0]
  after_results <;> rfl

/-! ## The heads region's entry -/

/-- Joining equal pieces along the columns gives equal arrays. -/
theorem join_congr {a a' : S4096x128.Idx → EReal} {b b' : S4096x1.Idx → EReal} (ha : a = a') (hb : b = b')
    (h : Shape.Concatenates [S4096x128, S4096x1] S4096x129 1) :
    concatenate S4096x129 1 [⟨S4096x128, a⟩, ⟨S4096x1, b⟩] h = concatenate S4096x129 1 [⟨S4096x128, a'⟩, ⟨S4096x1, b'⟩] h := by
  subst ha; subst hb; rfl

/-- The pooled features it finds are the pooling chain of the node embedding, the graph ids and y. -/
theorem entry1_h (c : Dev nD) : (V3 m ρ c main_v30 : S4096x129.Idx → EReal)
    = RefOps.pooled (W2 m ρ c (Proc.devRef .tc main_v17)) (W2 m ρ c (Proc.devRef .tc main_arg4))
        (W2 m ρ c (Proc.devRef .tc main_arg3)) := by
  show StableHlo.after hostOps1 (W2 m ρ c) (Proc.devRef .tc main_v30) = _
  generalize W2 m ρ c = W
  try dsimp only [hostOps1]
  after_results_simp
  unfold RefOps.pooled
  refine join_congr ?_ ?_ _
  · after_results_simp
    open Cert.ReferenceIdeal.Read in
    unfold val_main_v34 val_main_v33 val_main_v32 val_main_v31 val_main_v30 val_main_v29 val_main_v28 val_main_v27
      val_main_v25 val_main_v24 val_main_cst_4 val_main_cst_3 val_main_cst_2 val_main_cst_1
    rfl
  · after_results_simp

/-- Argument 8, the region's input window 1, reaches it as launched: an input window's array is never written. -/
theorem entry1_arg8 (c : Dev nD) : (V3 m ρ c main_arg8 : S129x64.Idx → EReal) = (m ((c : Thread nD τ).loc main_arg8)) :=
  ((W4_arr m ρ c 1).trans (((dat1 (V3 m ρ) c).arrAt_in 1 rfl _).trans (A_eq1 (V3 m ρ) c 1))).symm.trans (W4_main_arg8 m ρ c)

/-- Argument 9, the region's input window 2, reaches it as launched: an input window's array is never written. -/
theorem entry1_arg9 (c : Dev nD) : (V3 m ρ c main_arg9 : S64.Idx → EReal) = (m ((c : Thread nD τ).loc main_arg9)) :=
  ((W4_arr m ρ c 2).trans (((dat1 (V3 m ρ) c).arrAt_in 2 rfl _).trans (A_eq1 (V3 m ρ) c 2))).symm.trans (W4_main_arg9 m ρ c)

/-- Argument 10, the region's input window 3, reaches it as launched: an input window's array is never written. -/
theorem entry1_arg10 (c : Dev nD) : (V3 m ρ c main_arg10 : S64.Idx → EReal) = (m ((c : Thread nD τ).loc main_arg10)) :=
  ((W4_arr m ρ c 3).trans (((dat1 (V3 m ρ) c).arrAt_in 3 rfl _).trans (A_eq1 (V3 m ρ) c 3))).symm.trans (W4_main_arg10 m ρ c)

/-- Argument 11, the region's input window 4, reaches it as launched: an input window's array is never written. -/
theorem entry1_arg11 (c : Dev nD) : (V3 m ρ c main_arg11 : S64.Idx → EReal) = (m ((c : Thread nD τ).loc main_arg11)) :=
  ((W4_arr m ρ c 4).trans (((dat1 (V3 m ρ) c).arrAt_in 4 rfl _).trans (A_eq1 (V3 m ρ) c 4))).symm.trans (W4_main_arg11 m ρ c)

/-- Argument 12, the region's input window 5, reaches it as launched: an input window's array is never written. -/
theorem entry1_arg12 (c : Dev nD) : (V3 m ρ c main_arg12 : S129x64.Idx → EReal) = (m ((c : Thread nD τ).loc main_arg12)) :=
  ((W4_arr m ρ c 5).trans (((dat1 (V3 m ρ) c).arrAt_in 5 rfl _).trans (A_eq1 (V3 m ρ) c 5))).symm.trans (W4_main_arg12 m ρ c)

/-- Argument 13, the region's input window 6, reaches it as launched: an input window's array is never written. -/
theorem entry1_arg13 (c : Dev nD) : (V3 m ρ c main_arg13 : S64.Idx → EReal) = (m ((c : Thread nD τ).loc main_arg13)) :=
  ((W4_arr m ρ c 6).trans (((dat1 (V3 m ρ) c).arrAt_in 6 rfl _).trans (A_eq1 (V3 m ρ) c 6))).symm.trans (W4_main_arg13 m ρ c)

/-- Argument 14, the region's input window 7, reaches it as launched: an input window's array is never written. -/
theorem entry1_arg14 (c : Dev nD) : (V3 m ρ c main_arg14 : S64.Idx → EReal) = (m ((c : Thread nD τ).loc main_arg14)) :=
  ((W4_arr m ρ c 7).trans (((dat1 (V3 m ρ) c).arrAt_in 7 rfl _).trans (A_eq1 (V3 m ρ) c 7))).symm.trans (W4_main_arg14 m ρ c)

/-- Argument 15, the region's input window 8, reaches it as launched: an input window's array is never written. -/
theorem entry1_arg15 (c : Dev nD) : (V3 m ρ c main_arg15 : S64.Idx → EReal) = (m ((c : Thread nD τ).loc main_arg15)) :=
  ((W4_arr m ρ c 8).trans (((dat1 (V3 m ρ) c).arrAt_in 8 rfl _).trans (A_eq1 (V3 m ρ) c 8))).symm.trans (W4_main_arg15 m ρ c)

/-! ## The two results -/

/-- The first result array is the mean head. -/
theorem out_mu (c : Dev nD) : (W4 m ρ c (Proc.devRef .tc main_v31_0) : S4096x64.Idx → EReal)
    = RefOps.resMu (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W4_arr m ρ c 9).trans ((HeadsArray.final_mu (V3 m ρ) c).trans ?_)
  unfold HeadsArray.Gmu RefOps.resMu
  rw [entry1_h, entry1_arg8, entry1_arg9, entry1_arg10, entry1_arg11, exit0_embed, exit0_arg4, exit0_arg3]

/-- The second result array is the log-variance head. -/
theorem out_lv (c : Dev nD) : (W4 m ρ c (Proc.devRef .tc main_v31_1) : S4096x64.Idx → EReal)
    = RefOps.resLv (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg12)) (m ((c : Thread nD τ).loc main_arg13)) (m ((c : Thread nD τ).loc main_arg14)) (m ((c : Thread nD τ).loc main_arg15)) := by
  refine (W4_arr m ρ c 10).trans ((HeadsArray.final_lv (V3 m ρ) c).trans ?_)
  unfold HeadsArray.Glv RefOps.resLv
  rw [entry1_h, entry1_arg12, entry1_arg13, entry1_arg14, entry1_arg15, exit0_embed, exit0_arg4, exit0_arg3]

/-! ## The run, read -/

/-- Every weakly fair execution of the idealized kernel program terminates with the two results at the encoder's two
    functions of the arguments, and the arguments unchanged. -/
theorem run : θ_run defs (onTc (τ := τ) (main (F := Ideal))) ⟨m, fun _ => 0, ρ⟩ (fun r => ∀ c : Dev nD,
      r.2.mem ((c.tc : Thread nD τ).loc main_v31_0) = RefOps.resMu (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c.tc : Thread nD τ).loc main_v31_1) = RefOps.resLv (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg12)) (m ((c : Thread nD τ).loc main_arg13)) (m ((c : Thread nD τ).loc main_arg14)) (m ((c : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c _ (mem_uc main_v31_0 (by decide))).trans (out_mu m ρ c),
     (h c _ (mem_uc main_v31_1 (by decide))).trans (out_lv m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c),
     (h c _ (mem_uc main_arg12 (by decide))).trans (W4_main_arg12 m ρ c),
     (h c _ (mem_uc main_arg13 (by decide))).trans (W4_main_arg13 m ρ c),
     (h c _ (mem_uc main_arg14 (by decide))).trans (W4_main_arg14 m ρ c),
     (h c _ (mem_uc main_arg15 (by decide))).trans (W4_main_arg15 m ρ c)⟩)
    (KernelRunAll.run_all m ρ)

end Cert.GraphEnc.KernelValue

end
-- ==== Proof.lean ====
/-
  A graph encoder against its jnp reference, on the extended reals.

  Both programs compute, from node features x, an edge list with weights, graph ids, a target column y and the
  parameters of an embedding layer and two heads:
    msg   = the weighted sum, per destination node, of the source nodes' features   (gather, multiply, scatter-add);
    embed = relu(x · W_self + msg · W_nbr + b);
    h     = the mean of embed over each graph's nodes, with y appended as a last column (scatter-add, divide, join);
    z_mu     = relu(batch_norm(h · W_mu + b_mu));
    z_logvar = logistic(relu(batch_norm(h · W_var + b_var))).
  The kernel program computes embed in one tiled region (100 blocks of 5000 rows, bf16 operands into an f32 accumulator)
  and the two heads in a second region at a single grid point; msg and h are host operations around the regions, the
  same in both programs. On the extended reals a change of float format is the identity, a matrix product into a zero
  accumulator and the host's product are the same sum, a lane reduction and the host's sum are the same sum, and the
  kernel's logistic is the reference's 1 / (1 + exp(−z)); no sum is reordered, so no finiteness is used.

  The modules: Spec (the three formulas, entry by entry); EmbedBlock, HeadsBlock (the two bodies' stored values at an
  entry); EmbedArray, HeadsArray (each region's output arrays as functions of the arrays it finds); KernelRunAll (the
  program's run with every buffer named at the end); KernelValue (the two results as functions of the arguments);
  RefOps (the reference's operations read at an entry, and its two results as the same functions). Here: the five
  claims.
-/
import proofs.«129031_j29016799052365_1_alg».proof.Defs
import proofs.«129031_j29016799052365_1_alg».proof.Proof.Gen.Kernel
import proofs.«129031_j29016799052365_1_alg».proof.Proof.Gen.Kernel.Frame
import proofs.«129031_j29016799052365_1_alg».proof.Proof.Gen.KernelIdeal
import proofs.«129031_j29016799052365_1_alg».proof.Proof.Gen.KernelIdeal.Frame
import proofs.«129031_j29016799052365_1_alg».proof.Proof.Gen.ReferenceIdeal
import proofs.«129031_j29016799052365_1_alg».proof.Proof.Gen.Pre_finite_inputs
import proofs.«129031_j29016799052365_1_alg».proof.Proof.Gen.ReferenceIdeal.Run
import proofs.«129031_j29016799052365_1_alg».proof.Proof.Gen.ReferenceIdeal.Read
import proofs.«129031_j29016799052365_1_alg».proof.Proof.KernelValue
import proofs.«129031_j29016799052365_1_alg».proof.Proof.RefOps
import Idealize.ShloMosaic.Adequacy
import Idealize.ShloMosaic.Init

noncomputable section

namespace Cert.Proof

open Idealize.ShloMosaic Idealize.ShloMosaic.TcCoe Idealize.SL.Sem Cert.GraphEnc

/-- The kernel program as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the arguments both programs end with the encoder's two functions of the arguments in
    their result buffers: the kernel program by its regions' arrays read back through the host operations, the
    reference by its operations read at an entry. -/
theorem algebraic : Cert.algebraic_KernelIdeal_ReferenceIdeal := by
  intro m ρ m' ρ' _ hagree
  refine ⟨fun c => RefOps.resMu (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => RefOps.resLv (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    KernelValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10, e11, e12, e13, e14, e15⟩ := hagree c
    rw [Cert.ReferenceIdeal.Read.val_main_v65_eq, RefOps.out0, e0, e1, e2, e3, e4, e5, e6, e7, e8, e9, e10, e11]
  · obtain ⟨e0, e1, e2, e3, e4, e5, e6, e7, e8, e9, e10, e11, e12, e13, e14, e15⟩ := hagree c
    rw [Cert.ReferenceIdeal.Read.val_main_v100_eq, RefOps.out1, e0, e1, e2, e3, e4, e5, e6, e7, e12, e13, e14, e15]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
